-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel

variable [Facts]

def fn {F : FTy → Type} [FloatOps F] (main_arg0 : FVec F S8x2048x3 .f32) (main_arg1 : FVec F S8x2048x3 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  let main_v4 : FVec F S8x2048x3 .f32 := Host.absf main_arg1
  let main_cst_0 : FVec F S_ .f32 := constant S_ .f32 0x7F800000#32
  let main_v5 : FVec F S8x2048x3 .f32 := broadcastInDim S8x2048x3 ![] bcast_S_S8x2048x3 main_cst_0
  let main_v6 : IVec S8x2048x3 1 := cmpf .olt main_v4 main_v5
  let main_c_1 : IVec S_ 1 := constantI S_ 1 1#1
  let main_v7 : IVec S_ 1 := (fun x v => Host.reduce IntOp.andi x v reducesTo_S8x2048x3_S_d0_1_2 h_S_) main_v6 main_c_1
  let main_v8 : IVec S_ 1 := andi main_v3 main_v7
  main_v8
-- ==== Kernel.lean ====
abbrev S8x2048x3 : Shape := ⟨3, ![8, 2048, 3]⟩
abbrev S8x3x2048 : Shape := ⟨3, ![8, 3, 2048]⟩
abbrev S8x1x2048 : Shape := ⟨3, ![8, 1, 2048]⟩
abbrev S1x3x128 : Shape := ⟨3, ![1, 3, 128]⟩
abbrev S1x3x2048 : Shape := ⟨3, ![1, 3, 2048]⟩
abbrev S1x1x128 : Shape := ⟨3, ![1, 1, 128]⟩
abbrev S1x1x2048 : Shape := ⟨3, ![1, 1, 2048]⟩
abbrev S1x2048 : Shape := ⟨2, ![1, 2048]⟩
abbrev S1x128 : Shape := ⟨2, ![1, 128]⟩
abbrev S1x128x1 : Shape := ⟨3, ![1, 128, 1]⟩
abbrev S1x128x2048 : Shape := ⟨3, ![1, 128, 2048]⟩
abbrev S8x2048 : Shape := ⟨2, ![8, 2048]⟩
abbrev S_ : Shape := ⟨0, ![]⟩
abbrev S8 : Shape := ⟨1, ![8]⟩

abbrev nBuf : Space → Nat
  | .hbm => 19
  | .vmem => 8
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S8x3x2048, .f32⟩
  | .hbm, ⟨3, _⟩ => ⟨S8x3x2048, .f32⟩
  | .hbm, ⟨4, _⟩ => ⟨S8x1x2048, .f32⟩
  | .hbm, ⟨5, _⟩ => ⟨S8x1x2048, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .local _ .vmem, ⟨0, _⟩ => ⟨S1x3x128, .f32⟩
  | .local _ .vmem, ⟨1, _⟩ => ⟨S1x3x128, .f32⟩
  | .local _ .vmem, ⟨2, _⟩ => ⟨S1x3x2048, .f32⟩
  | .local _ .vmem, ⟨3, _⟩ => ⟨S1x1x128, .f32⟩
  | .local _ .vmem, ⟨4, _⟩ => ⟨S1x1x128, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def k0_cond3 (i : grid0.Coords) : BitVec 1 :=
  let arg1 : BitVec 32 := BitVec.ofNat 32 (i 1).val
  let c15_i32 : BitVec 32 := 15#32
  let v47 : BitVec 1 := Scalar.cmpi .eq arg1 c15_i32
  let v48 : BitVec 32 := Scalar.extui v47
  let c0_i32_12 : BitVec 32 := 0#32
  let v49 : BitVec 1 := Scalar.cmpi .ne v48 c0_i32_12
  v49

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x3x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8x2048x3_S8x3x2048_0_2_1 : S8x2048x3.Transposes [0, 2, 1] S8x3x2048
  inb_S1x3x128_S1x3x128_0_0_0 : ∀ a, (![0, 0, 0] : Fin 3 → Nat) a + S1x3x128.size a ≤ S1x3x128.size a
  h_S1x3x128 : 0 < S1x3x128.numel
  shapeCasts_S1x3x128_S1x3x128 : S1x3x128.ShapeCasts S1x3x128
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S1x3x2048 : S1x3x2048.ShapeCasts S1x3x2048
  slices_S1x3x128_o0_0_0_S1x1x128 : S1x3x128.Slices ![0, 0, 0] S1x1x128
  shapeCasts_S1x1x128_S1x128 : S1x1x128.ShapeCasts S1x128
  slices_S1x3x2048_o0_0_0_S1x1x2048 : S1x3x2048.Slices ![0, 0, 0] S1x1x2048
  shapeCasts_S1x1x2048_S1x2048 : S1x1x2048.ShapeCasts S1x2048
  shapeCasts_S1x128_S1x128x1 : S1x128.ShapeCasts S1x128x1
  shapeCasts_S1x2048_S1x1x2048 : S1x2048.ShapeCasts S1x1x2048
  broadcasts_S1x128x1_S1x128x2048 : S1x128x1.Broadcasts S1x128x2048
  broadcasts_S1x1x2048_S1x128x2048 : S1x1x2048.Broadcasts S1x128x2048
  slices_S1x3x128_o0_1_0_S1x1x128 : S1x3x128.Slices ![0, 1, 0] S1x1x128
  slices_S1x3x2048_o0_1_0_S1x1x2048 : S1x3x2048.Slices ![0, 1, 0] S1x1x2048
  slices_S1x3x128_o0_2_0_S1x1x128 : S1x3x128.Slices ![0, 2, 0] S1x1x128
  slices_S1x3x2048_o0_2_0_S1x1x2048 : S1x3x2048.Slices ![0, 2, 0] S1x1x2048
  reduces_S1x128x2048_S1x128 : S1x128x2048.Reduces [2] S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reduces_S1x128x2048_S1x2048 : S1x128x2048.Reduces [1] S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1x2048_S1x1x2048_0_0_0 : ∀ a, (![0, 0, 0] : Fin 3 → Nat) a + S1x1x2048.size a ≤ S1x1x2048.size a
  h_S1x1x2048 : 0 < S1x1x2048.numel
  shapeCasts_S8x1x2048_S8x2048 : S8x1x2048.ShapeCasts S8x2048
  reducesTo_S8x2048_S8_d1 : S8x2048.ReducesTo [1] S8
  h_S_ : 0 < S_.numel
  bcast_S_S8 : S_.BroadcastsInDim S8 (![] : Fin 0 → Fin S8.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x128.size a ≤ S8x3x2048.size a
  hwx0_0 : ∀ i : grid0.Coords, EltTy.bits .f32 = 32 ∨ (Rect.block (s := S8x3x2048) S1x3x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S8x3x2048.size a
  hwx0_1 : ∀ i : grid0.Coords, EltTy.bits .f32 = 32 ∨ (Rect.block (s := S8x3x2048) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x2048.size a
  hwx0_2 : ∀ i : grid0.Coords, EltTy.bits .f32 = 32 ∨ (Rect.block (s := S8x1x2048) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S8x1x2048.size a
  hwx0_3 : ∀ i : grid0.Coords, EltTy.bits .f32 = 32 ∨ (Rect.block (s := S8x1x2048) S1x1x2048.size (cc0_transform_3 i) (hinb0_3 i)).WholeWords (EltTy.packing .f32)

variable [Facts₀]

abbrev win0_0 : Pipeline.Window sig grid0 :=
  Pipeline.Window.ofSpec (Memref.whole main_v0) S1x3x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S8x2048x3 : Shape := ⟨3, ![8, 2048, 3]⟩
abbrev S8x2048x1x3 : Shape := ⟨4, ![8, 2048, 1, 3]⟩
abbrev S8x1x2048x3 : Shape := ⟨4, ![8, 1, 2048, 3]⟩
abbrev S8x2048x2048x3 : Shape := ⟨4, ![8, 2048, 2048, 3]⟩
abbrev S_ : Shape := ⟨0, ![]⟩
abbrev S8x2048x2048 : Shape := ⟨3, ![8, 2048, 2048]⟩
abbrev S8x2048 : Shape := ⟨2, ![8, 2048]⟩
abbrev S8 : Shape := ⟨1, ![8]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S8x2048x1x3, .f32⟩
  | .hbm, ⟨3, _⟩ => ⟨S8x1x2048x3, .f32⟩
  | .hbm, ⟨4, _⟩ => ⟨S8x2048x2048x3, .f32⟩
  | .hbm, ⟨5, _⟩ => ⟨S8x2048x2048x3, .f32⟩
  | .hbm, ⟨6, _⟩ => ⟨S8x2048x2048x3, .f32⟩
  | .hbm, ⟨7, _⟩ => ⟨S8x2048x2048x3, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S_, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S8, .f32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S8x2048x3_S8x2048x1x3_0_1_3 : S8x2048x3.BroadcastsInDim S8x2048x1x3 (![0, 1, 3] : Fin 3 → Fin S8x2048x1x3.rank)
  bcast_S8x2048x3_S8x1x2048x3_0_2_3 : S8x2048x3.BroadcastsInDim S8x1x2048x3 (![0, 2, 3] : Fin 3 → Fin S8x1x2048x3.rank)
  bcast_S8x2048x1x3_S8x2048x2048x3_0_1_2_3 : S8x2048x1x3.BroadcastsInDim S8x2048x2048x3 (![0, 1, 2, 3] : Fin 4 → Fin S8x2048x2048x3.rank)
  bcast_S8x1x2048x3_S8x2048x2048x3_0_1_2_3 : S8x1x2048x3.BroadcastsInDim S8x2048x2048x3 (![0, 1, 2, 3] : Fin 4 → Fin S8x2048x2048x3.rank)
  reducesTo_S8x2048x2048x3_S8x2048x2048_d3 : S8x2048x2048x3.ReducesTo [3] S8x2048x2048
  h_S_ : 0 < S_.numel
  reducesTo_S8x2048x2048_S8x2048_d2 : S8x2048x2048.ReducesTo [2] S8x2048
  reducesTo_S8x2048x2048_S8x2048_d1 : S8x2048x2048.ReducesTo [1] S8x2048
  reducesTo_S8x2048_S8_d1 : S8x2048.ReducesTo [1] S8
  bcast_S_S8 : S_.BroadcastsInDim S8 (![] : Fin 0 → Fin S8.rank)

variable [Facts₀]

class Facts : Prop extends Facts₀ where

variable [Facts]
-- ==== Proof.WordTileCases.lean ====
/-
  The grid of the nearest-neighbour kernel and the three kinds of point on it.

  The kernel walks 8 batches by 16 tiles of 128 query points. At every point it computes the 128 x 2048 squared
  distances between the tile's query points and all key points of the batch, stores the row minima (rooted) into the
  row output's block, and folds the column minima into a scratch row that lives across the 16 tiles of a batch: started
  on the first tile, lowered on each later tile, and on the last tile rooted and stored into the column output's block.
  This module decides, over the 128 grid points, which tile is first, later, last (as the body itself computes those
  conditions from the tile coordinate), where the column output is idle, and names the buffers the body is handed;
  and it proves the two facts about whole buffers every case uses: a load of a whole buffer reads its contents, and one
  whole store read back is the value stored.
-/
import proofs.«146239_j42021960024229_2_alg».proof.Proof.Gen.Kernel.Launch
import proofs.«146239_j42021960024229_2_alg».proof.Proof.Gen.Kernel.Skeleton
import proofs.«146239_j42021960024229_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three kinds of grid point

The grid is 8 batches by 16 tiles of 128 query points; point `t` is tile `t % 16` of batch `t / 16`. The body
branches on the tile number alone: on the first tile of a batch it starts the running column minimum, on every
later tile it lowers it, and on the last tile it also takes the square root and writes the column result. -/

/-- "This is the first tile of its batch", as the body computes it from the tile coordinate. -/
abbrev tileFirst (i : grid0.Coords) : Prop :=
  (Scalar.cmpi .ne (Scalar.extui (Scalar.cmpi .eq (BitVec.ofNat 32 (i 1).val) 0#32)) 0#32) = 1#1
/-- "This is a later tile of its batch". -/
abbrev tileLater (i : grid0.Coords) : Prop :=
  (Scalar.cmpi .ne (Scalar.extui (Scalar.cmpi .sgt (BitVec.ofNat 32 (i 1).val) 0#32)) 0#32) = 1#1
/-- "This is the last tile of its batch". -/
abbrev tileLast (i : grid0.Coords) : Prop := k0_cond3 i = 1#1

theorem tileFirst_iff : ∀ t : Fin cfg0.N, tileFirst (grid0.coords t) ↔ t.val % 16 = 0 :=
  (by decide +kernel : ∀ t : Fin grid0.N, tileFirst (grid0.coords t) ↔ t.val % 16 = 0)
theorem tileLater_iff : ∀ t : Fin cfg0.N, tileLater (grid0.coords t) ↔ t.val % 16 ≠ 0 :=
  (by decide +kernel : ∀ t : Fin grid0.N, tileLater (grid0.coords t) ↔ t.val % 16 ≠ 0)
theorem tileLast_iff : ∀ t : Fin cfg0.N, tileLast (grid0.coords t) ↔ t.val % 16 = 15 :=
  (by decide +kernel : ∀ t : Fin grid0.N, tileLast (grid0.coords t) ↔ t.val % 16 = 15)

/-! ## Which windows the body stores into, and when they are written back -/

theorem live_query : ∀ t : Fin cfg0.N, cfg0.idle 0 (grid0.coords t) = false := by decide +kernel
theorem live_keys : ∀ t : Fin cfg0.N, cfg0.idle 1 (grid0.coords t) = false := by decide +kernel
theorem live_rowOut : ∀ t : Fin cfg0.N, cfg0.idle 2 (grid0.coords t) = false := by decide +kernel
/-- Off the last tile the body stores nothing into the column output, -/
theorem idle_colOut : ∀ t : Fin cfg0.N, ¬tileLast (grid0.coords t) → cfg0.idle 3 (grid0.coords t) = true := by decide +kernel
/-- and the pipeline does not write it back there; -/
theorem noFlush_colOut : ∀ t : Fin cfg0.N, ¬tileLast (grid0.coords t) → (cfg0.win 3).flush t = false := by decide +kernel
/-- on the last tile it does store. -/
theorem live_colOut : ∀ t : Fin cfg0.N, tileLast (grid0.coords t) → cfg0.idle 3 (grid0.coords t) = false := by decide +kernel

/-! ## The buffers the body is called with -/

abbrev qBuf (t : Fin cfg0.N) : Memref sig .tc .vmem S1x3x128 .f32 := win0_0.stage (cfg0.slots t 0)
abbrev qWhole (t : Fin cfg0.N) : (qBuf t).IsWhole := hstage0_0 ((cfg0.slots t 0).cast nbuf0_0)
abbrev kBuf (t : Fin cfg0.N) : Memref sig .tc .vmem S1x3x2048 .f32 := win0_1.stage (cfg0.slots t 1)
abbrev kWhole (t : Fin cfg0.N) : (kBuf t).IsWhole := hstage0_1 ((cfg0.slots t 1).cast nbuf0_1)
abbrev rowBuf (t : Fin cfg0.N) : Memref sig .tc .vmem S1x1x128 .f32 := win0_2.stage (cfg0.slots t 2)
abbrev rowWhole (t : Fin cfg0.N) : (rowBuf t).IsWhole := hstage0_2 ((cfg0.slots t 2).cast nbuf0_2)
abbrev colBuf (t : Fin cfg0.N) : Memref sig .tc .vmem S1x1x2048 .f32 := win0_3.stage (cfg0.slots t 3)
abbrev colWhole (t : Fin cfg0.N) : (colBuf t).IsWhole := hstage0_3 ((cfg0.slots t 3).cast nbuf0_3)
/-- The scratch row that carries the running column minimum from one tile to the next. -/
abbrev accBuf : Memref sig .tc .vmem S1x2048 .f32 := Memref.whole cc0_scratch0

/-- What the region may use besides its windows: the scratch row at some contents, and the generator register. -/
theorem regionRest_eq (c : Dev nD) :
    (Pipeline.ΦA spec0 c : sProp 𝕄)
      = iprop(iprop((∃ d, owns (c : Thread nD τ) accBuf fullShare d)) ∗ (∃ r, prngReg c r)) := by
  unfold Pipeline.ΦA; rw [scopedRest0_eq]; simp only [accBuf, owns_whole]; try rfl

/-- One store of a whole buffer, read back, is the value stored, whatever the buffer held. -/
theorem read_stored_whole {sg : RefSig} {κ : Kind} {sp : Space} {S : Shape} {e : EltTy} [∀ e, Nonempty (Elt F e)]
    (v : View sg κ sp S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero h inb y⟩)).trans
    (View.canon_unit_zero h inb w)

/-- A load of a whole buffer reads what the buffer holds. -/
theorem load_whole {sp : Space} {S : Shape} {e : EltTy} (mr : Memref sig .tc sp S e) (h : mr.IsWhole)
    {off : Fin S.rank → Nat} (hz : off = fun _ => 0) (inb : ∀ a, off a + S.size a ≤ S.size a) (X : S.Idx → Elt F e) :
    mr.view.readAt (Elt F) (Rect.unit off S.size inb).toLoadRect (h.unread X) = X := by
  rw [View.readAt_eq_ld, h.read_unread, View.ld_unit_zero hz]

theorem zeros3 : (![0, 0, 0] : Fin 3 → Nat) = fun _ => 0 := by funext a; fin_cases a <;> rfl
theorem zeros2 : (![0, 0] : Fin 2 → Nat) = fun _ => 0 := by funext a; fin_cases a <;> rfl

end Cert.Kernel.Chamfer

end
-- ==== Proof.WordTileRuns.lean ====
/-
  The kernel body, run once in each of the three kinds of grid point.

  In every case the body is handed the query tile `x0`, the batch's keys `x1`, the row output's block, the column
  output's block and the scratch row, and leaves the row output's block at `k0_pay5 x0 x1` (the rooted row minima).
  With `col = k0_pay6 x0 x1` the tile's column minima:
   * first tile: the scratch row is overwritten with `col` (`k0_pay1 col`), the column output is not touched;
   * later tile: the scratch row `ys` becomes the entrywise minimum of `ys` and `col` (`k0_pay2 col ys`), the column
     output is not touched;
   * last tile: as a later tile, and the column output's block is left at the root of the new scratch row
     (`k0_pay3 (k0_pay2 col ys)`).
  Each triple is stated for arbitrary whole buffers and an arbitrary continuation, so that it applies at every point.
-/
import proofs.«146239_j42021960024229_2_alg».proof.Proof.WordTileCases

set_option maxRecDepth 16384

noncomputable section

namespace Cert.Kernel.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first tile of a batch. -/
theorem run_first (c : Dev nD) (i : grid0.Coords)
    (arg2 : Memref sig .tc .vmem S1x3x128 .f32) (harg2 : arg2.IsWhole)
    (arg3 : Memref sig .tc .vmem S1x3x2048 .f32) (harg3 : arg3.IsWhole)
    (arg4 : Memref sig .tc .vmem S1x1x128 .f32) (harg4 : arg4.IsWhole)
    (arg5 : Memref sig .tc .vmem S1x1x2048 .f32) (harg5 : arg5.IsWhole)
    (arg6 : Memref sig .tc .vmem S1x2048 .f32) (harg6 : arg6.IsWhole)
    (h1 : tileFirst i) (h2 : ¬tileLater i) (h3 : ¬tileLast i)
    (x0 : Vec F S1x3x128 .f32) (x1 : Vec F S1x3x2048 .f32) (y2 : Vec F S1x1x128 .f32) (y3 : Vec F S1x1x2048 .f32) (ys : Vec F S1x2048 .f32)
    (E : Set ℕ) (K : PUnit → sProp 𝕄) :
    iprop(owns (c : Thread nD τ) arg2 fullShare x0 ∗ owns (c : Thread nD τ) arg3 fullShare x1 ∗ owns (c : Thread nD τ) arg4 fullShare y2
        ∗ owns (c : Thread nD τ) arg5 fullShare y3 ∗ owns (c : Thread nD τ) arg6 fullShare ys
        ∗ (iprop(owns (c : Thread nD τ) arg2 fullShare x0 ∗ owns (c : Thread nD τ) arg3 fullShare x1
            ∗ owns (c : Thread nD τ) arg4 fullShare (k0_pay5 x0 x1) ∗ owns (c : Thread nD τ) arg5 fullShare y3
            ∗ owns (c : Thread nD τ) arg6 fullShare (k0_pay1 (k0_pay6 x0 x1))) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg6.eq_unread hfs
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [read_stored_whole _ _ zeros3, load_whole arg2 harg2 zeros3, load_whole arg3 harg3 zeros3]
  isplitl [H3]
  · iexists _; isplitr; · ipureintro; exact hf3
    iexact H3
  iexists _; isplitr
  swap; · iexact HS
  ipureintro
  sl_unfold_run_names
  rw [read_stored_whole _ _ zeros2]
  rw [load_whole arg2 harg2 zeros3, load_whole arg3 harg3 zeros3]

/-- A later tile that is not the last. -/
theorem run_later (c : Dev nD) (i : grid0.Coords)
    (arg2 : Memref sig .tc .vmem S1x3x128 .f32) (harg2 : arg2.IsWhole)
    (arg3 : Memref sig .tc .vmem S1x3x2048 .f32) (harg3 : arg3.IsWhole)
    (arg4 : Memref sig .tc .vmem S1x1x128 .f32) (harg4 : arg4.IsWhole)
    (arg5 : Memref sig .tc .vmem S1x1x2048 .f32) (harg5 : arg5.IsWhole)
    (arg6 : Memref sig .tc .vmem S1x2048 .f32) (harg6 : arg6.IsWhole)
    (h1 : ¬tileFirst i) (h2 : tileLater i) (h3 : ¬tileLast i)
    (x0 : Vec F S1x3x128 .f32) (x1 : Vec F S1x3x2048 .f32) (y2 : Vec F S1x1x128 .f32) (y3 : Vec F S1x1x2048 .f32) (ys : Vec F S1x2048 .f32)
    (E : Set ℕ) (K : PUnit → sProp 𝕄) :
    iprop(owns (c : Thread nD τ) arg2 fullShare x0 ∗ owns (c : Thread nD τ) arg3 fullShare x1 ∗ owns (c : Thread nD τ) arg4 fullShare y2
        ∗ owns (c : Thread nD τ) arg5 fullShare y3 ∗ owns (c : Thread nD τ) arg6 fullShare ys
        ∗ (iprop(owns (c : Thread nD τ) arg2 fullShare x0 ∗ owns (c : Thread nD τ) arg3 fullShare x1
            ∗ owns (c : Thread nD τ) arg4 fullShare (k0_pay5 x0 x1) ∗ owns (c : Thread nD τ) arg5 fullShare y3
            ∗ owns (c : Thread nD τ) arg6 fullShare (k0_pay2 (k0_pay6 x0 x1) ys)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg6.eq_unread hfs
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [read_stored_whole _ _ zeros3, load_whole arg2 harg2 zeros3, load_whole arg3 harg3 zeros3]
  isplitl [H3]
  · iexists _; isplitr; · ipureintro; exact hf3
    iexact H3
  iexists _; isplitr
  swap; · iexact HS
  ipureintro
  sl_unfold_run_names
  rw [read_stored_whole _ _ zeros2]
  rw [load_whole arg2 harg2 zeros3, load_whole arg3 harg3 zeros3, load_whole arg6 harg6 zeros2]

/-- The last tile of a batch. -/
theorem run_last (c : Dev nD) (i : grid0.Coords)
    (arg2 : Memref sig .tc .vmem S1x3x128 .f32) (harg2 : arg2.IsWhole)
    (arg3 : Memref sig .tc .vmem S1x3x2048 .f32) (harg3 : arg3.IsWhole)
    (arg4 : Memref sig .tc .vmem S1x1x128 .f32) (harg4 : arg4.IsWhole)
    (arg5 : Memref sig .tc .vmem S1x1x2048 .f32) (harg5 : arg5.IsWhole)
    (arg6 : Memref sig .tc .vmem S1x2048 .f32) (harg6 : arg6.IsWhole)
    (h1 : ¬tileFirst i) (h2 : tileLater i) (h3 : tileLast i)
    (x0 : Vec F S1x3x128 .f32) (x1 : Vec F S1x3x2048 .f32) (y2 : Vec F S1x1x128 .f32) (y3 : Vec F S1x1x2048 .f32) (ys : Vec F S1x2048 .f32)
    (E : Set ℕ) (K : PUnit → sProp 𝕄) :
    iprop(owns (c : Thread nD τ) arg2 fullShare x0 ∗ owns (c : Thread nD τ) arg3 fullShare x1 ∗ owns (c : Thread nD τ) arg4 fullShare y2
        ∗ owns (c : Thread nD τ) arg5 fullShare y3 ∗ owns (c : Thread nD τ) arg6 fullShare ys
        ∗ (iprop(owns (c : Thread nD τ) arg2 fullShare x0 ∗ owns (c : Thread nD τ) arg3 fullShare x1
            ∗ owns (c : Thread nD τ) arg4 fullShare (k0_pay5 x0 x1)
            ∗ owns (c : Thread nD τ) arg5 fullShare (k0_pay3 (k0_pay2 (k0_pay6 x0 x1) ys))
            ∗ owns (c : Thread nD τ) arg6 fullShare (k0_pay2 (k0_pay6 x0 x1) ys)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg6.eq_unread hfs
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [read_stored_whole _ _ zeros3, load_whole arg2 harg2 zeros3, load_whole arg3 harg3 zeros3]
  isplitl [H3]
  · iexists _; isplitr
    swap; · iexact H3
    ipureintro
    sl_unfold_run_names
    rw [read_stored_whole _ _ zeros3]
    rw [View.readCov_unit_zero _ zeros2, load_whole arg2 harg2 zeros3, load_whole arg3 harg3 zeros3, load_whole arg6 harg6 zeros2]
  iexists _; isplitr
  swap; · iexact HS
  ipureintro
  sl_unfold_run_names
  rw [read_stored_whole _ _ zeros2]
  rw [load_whole arg2 harg2 zeros3, load_whole arg3 harg3 zeros3, load_whole arg6 harg6 zeros2]

end Cert.Kernel.Chamfer

end
-- ==== Proof.WordColumnAcc.lean ====
/-
  The running column minimum, point by point, and the kernel's run.

  `colAcc n` is what the scratch row holds after the body at grid position `n`: on the first tile of a batch the tile's
  column minima, on a later tile the entrywise minimum of those with what the position before left. The region's
  invariant carries exactly that in the scratch row from one point to the next (before the first point the scratch row
  holds anything). After the body each input window's buffer still holds its block, the row output's buffer holds the
  rooted row minima of the point's blocks, and the column output's buffer — stored into only on a batch's last tile, and
  only written back there — holds the root of the running column minimum. With this data every point's body obligation
  is the triple of the point's kind, and the launch theorem for a region followed by host operations gives the run: it
  terminates, nothing faults, and every array of the pipeline ends at what the data computes.
-/
import proofs.«146239_j42021960024229_2_alg».proof.Proof.WordTileRuns
import proofs.«146239_j42021960024229_2_alg».proof.Proof.Gen.Kernel.Frame

set_option maxRecDepth 16384

noncomputable section

namespace Cert.Kernel.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the scratch row holds after the body at position `n`. -/
def colAcc (c : Dev nD) : (n : ℕ) → n < cfg0.N → Vec F S1x2048 .f32
  | 0, hn => k0_pay1 (k0_pay6 (iblk m c 0 ⟨0, hn⟩) (iblk m c 1 ⟨0, hn⟩))
  | n + 1, hn =>
    if (n + 1) % 16 = 0 then k0_pay1 (k0_pay6 (iblk m c 0 ⟨n + 1, hn⟩) (iblk m c 1 ⟨n + 1, hn⟩))
    else k0_pay2 (k0_pay6 (iblk m c 0 ⟨n + 1, hn⟩) (iblk m c 1 ⟨n + 1, hn⟩)) (colAcc c n (Nat.lt_of_succ_lt hn))

/-- On the first tile of a batch the scratch row is started afresh. -/
theorem colAcc_first (c : Dev nD) (t : Fin cfg0.N) (h : t.val % 16 = 0) :
    colAcc m c t.val t.isLt = k0_pay1 (k0_pay6 (iblk m c 0 t) (iblk m c 1 t)) := by
  obtain ⟨n, hn⟩ := t
  cases n with
  | zero => rfl
  | succ n => exact (if_pos h).trans rfl

/-- On a later tile it is lowered by the tile's column minima. -/
theorem colAcc_later (c : Dev nD) (t : Fin cfg0.N) (h : ¬t.val % 16 = 0) :
    colAcc m c t.val t.isLt
      = k0_pay2 (k0_pay6 (iblk m c 0 t) (iblk m c 1 t)) (colAcc m c (t.val - 1) (Nat.lt_of_le_of_lt (Nat.sub_le _ _) t.isLt)) := by
  obtain ⟨n, hn⟩ := t
  cases n with
  | zero => exact absurd (Nat.zero_mod _) h
  | succ n => exact (if_neg h).trans rfl

/-- The region's invariant before position `n`: before the first point whatever the launch hands over; afterwards the
    scratch row at what the position before left, and the generator register at some state. -/
def PhiAcc (c : Dev nD) : (n : ℕ) → n ≤ cfg0.N → sProp 𝕄
  | 0, _ => Pipeline.ΦA spec0 c
  | n + 1, hn => iprop(iprop(owns (c : Thread nD τ) accBuf fullShare (colAcc m c n hn)) ∗ (∃ r, prngReg c r))

theorem PhiAcc_zero (c : Dev nD) (n : ℕ) (h : n ≤ cfg0.N) (hz : n = 0) : PhiAcc m c n h = Pipeline.ΦA spec0 c := by
  subst hz; rfl

theorem PhiAcc_succ (c : Dev nD) (n : ℕ) (hn : n < cfg0.N) :
    PhiAcc m c (n + 1) hn = iprop(iprop(owns (c : Thread nD τ) accBuf fullShare (colAcc m c n hn)) ∗ (∃ r, prngReg c r)) := rfl

theorem PhiAcc_pos (c : Dev nD) (n : ℕ) (h : n ≤ cfg0.N) (hz : n ≠ 0) :
    PhiAcc m c n h = iprop(iprop(owns (c : Thread nD τ) accBuf fullShare (colAcc m c (n - 1) (by omega))) ∗ (∃ r, prngReg c r)) := by
  cases n with
  | zero => exact absurd rfl hz
  | succ n => rfl

/-! ## The proof data -/

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay5 (iblk m c 0 t) (iblk m c 1 t)
    | ⟨3, _⟩ => k0_pay3 (colAcc m c t.val t.isLt)
  Φ t := PhiAcc m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiAcc m c t.val (Nat.le_of_lt t.isLt) := by
  dsimp only [dats]; simp only [Fin.coe_castSucc]

theorem after_query (c : Dev nD) (t : Fin cfg0.N) : (dats m 0 c).after 0 t = iblk m c 0 t := by dsimp only [dats]
theorem after_keys (c : Dev nD) (t : Fin cfg0.N) : (dats m 0 c).after 1 t = iblk m c 1 t := by dsimp only [dats]
theorem after_rowOut (c : Dev nD) (t : Fin cfg0.N) :
    (dats m 0 c).after 2 t = k0_pay5 (iblk m c 0 t) (iblk m c 1 t) := by dsimp only [dats]
theorem after_colOut (c : Dev nD) (t : Fin cfg0.N) :
    (dats m 0 c).after 3 t = k0_pay3 (colAcc m c t.val t.isLt) := by dsimp only [dats]

/-- Each input's current buffer holds its block at every point, fetched there or not. -/
theorem before_query (c : Dev nD) (t : Fin cfg0.N) (d) : (dats m 0 c).before 0 t d = iblk m c 0 t :=
  before0_0_of m (dats m 0 c) (A_eq m c 0) (after_query m c) t d
theorem before_keys (c : Dev nD) (t : Fin cfg0.N) (d) : (dats m 0 c).before 1 t d = iblk m c 1 t :=
  before0_1_of m (dats m 0 c) (A_eq m c 1) (after_keys m c) t d

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (qBuf t) fullShare ((dats m 0 c).before 0 t d))
    ∗ (∃ d, owns (c : Thread nD τ) (kBuf t) fullShare ((dats m 0 c).before 1 t d))
    ∗ (∃ d, owns (c : Thread nD τ) (rowBuf t) fullShare ((dats m 0 c).before 2 t d))
    ∗ (∃ d, owns (c : Thread nD τ) (colBuf t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point: the triple of the point's kind, between the invariant before and after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_query, before_keys]
  rw [show (dats m 0 c).owesAt () t.succ = (dats m 0 c).owesAt () t.castSucc from rfl]
  rw [show (dats m 0 c).Φ t.succ = PhiAcc m c (t.val + 1) t.isLt from rfl, PhiAcc_succ]
  rw [show (dats m 0 c).leavesExact 0 t = owns (c : Thread nD τ) (qBuf t) fullShare ((dats m 0 c).after 0 t) from by
    unfold Dat.leavesExact; rw [live_query t], after_query]
  rw [show (dats m 0 c).leavesExact 1 t = owns (c : Thread nD τ) (kBuf t) fullShare ((dats m 0 c).after 1 t) from by
    unfold Dat.leavesExact; rw [live_keys t], after_keys]
  rw [show (dats m 0 c).leavesExact 2 t = owns (c : Thread nD τ) (rowBuf t) fullShare ((dats m 0 c).after 2 t) from by
    unfold Dat.leavesExact; rw [live_rowOut t], after_rowOut]
  have hN : t.val < 128 := lt_of_lt_of_eq t.isLt (show cfg0.N = 128 from N_0)
  by_cases h0 : t.val % 16 = 0
  · have c1 : tileFirst (grid0.coords t) := (tileFirst_iff t).mpr h0
    have c2 : ¬tileLater (grid0.coords t) := fun h => (tileLater_iff t).mp h h0
    have c3 : ¬tileLast (grid0.coords t) := fun h => by have := (tileLast_iff t).mp h; omega
    rw [Dat.leavesExact_idle (dats m 0 c) 3 t (idle_colOut t c3) (noFlush_colOut t c3)]
    rw [colAcc_first m c t h0]
    by_cases hz : t.val = 0
    · rw [Phi_castSucc m c t, PhiAcc_zero m c _ _ hz, regionRest_eq]
      iintro ⟨⟨⟨%ds, HS⟩, Hg⟩, Ho, ⟨%d0, H0⟩, ⟨%d1, H1⟩, ⟨%d2, H2⟩, ⟨%d3, H3⟩⟩
      iapply (run_first c (grid0.coords t) (qBuf t) (qWhole t) (kBuf t) (kWhole t) (rowBuf t) (rowWhole t) (colBuf t) (colWhole t)
        accBuf (Memref.isWhole_whole _) c1 c2 c3 (iblk m c 0 t) (iblk m c 1 t) _ _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [Phi_castSucc m c t, PhiAcc_pos m c _ _ hz]
      iintro ⟨⟨HS, Hg⟩, Ho, ⟨%d0, H0⟩, ⟨%d1, H1⟩, ⟨%d2, H2⟩, ⟨%d3, H3⟩⟩
      iapply (run_first c (grid0.coords t) (qBuf t) (qWhole t) (kBuf t) (kWhole t) (rowBuf t) (rowWhole t) (colBuf t) (colWhole t)
        accBuf (Memref.isWhole_whole _) c1 c2 c3 (iblk m c 0 t) (iblk m c 1 t) _ _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
  · have c1 : ¬tileFirst (grid0.coords t) := fun h => h0 ((tileFirst_iff t).mp h)
    have c2 : tileLater (grid0.coords t) := (tileLater_iff t).mpr h0
    have hz : t.val ≠ 0 := fun h => h0 (by rw [h])
    rw [colAcc_later m c t h0]
    rw [Phi_castSucc m c t, PhiAcc_pos m c _ _ hz]
    by_cases h15 : t.val % 16 = 15
    · have c3 : tileLast (grid0.coords t) := (tileLast_iff t).mpr h15
      rw [show (dats m 0 c).leavesExact 3 t = owns (c : Thread nD τ) (colBuf t) fullShare ((dats m 0 c).after 3 t) from by
        unfold Dat.leavesExact; rw [live_colOut t c3], after_colOut, colAcc_later m c t h0]
      iintro ⟨⟨HS, Hg⟩, Ho, ⟨%d0, H0⟩, ⟨%d1, H1⟩, ⟨%d2, H2⟩, ⟨%d3, H3⟩⟩
      iapply (run_last c (grid0.coords t) (qBuf t) (qWhole t) (kBuf t) (kWhole t) (rowBuf t) (rowWhole t) (colBuf t) (colWhole t)
        accBuf (Memref.isWhole_whole _) c1 c2 c3 (iblk m c 0 t) (iblk m c 1 t) _ _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · have c3 : ¬tileLast (grid0.coords t) := fun h => h15 ((tileLast_iff t).mp h)
      rw [Dat.leavesExact_idle (dats m 0 c) 3 t (idle_colOut t c3) (noFlush_colOut t c3)]
      iintro ⟨⟨HS, Hg⟩, Ho, ⟨%d0, H0⟩, ⟨%d1, H1⟩, ⟨%d2, H2⟩, ⟨%d3, H3⟩⟩
      iapply (run_later c (grid0.coords t) (qBuf t) (qWhole t) (kBuf t) (kWhole t) (rowBuf t) (rowWhole t) (colBuf t) (colWhole t)
        accBuf (Memref.isWhole_whole _) c1 c2 c3 (iblk m c 0 t) (iblk m c 1 t) _ _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem region_in (c : Dev nD) : Pipeline.ΦA spec0 c ⊢ (dats m 0 c).Φ 0 := by
  rw [show (dats m 0 c).Φ 0 = PhiAcc m c 0 (Nat.zero_le _) from rfl, PhiAcc_zero m c 0 _ rfl]
  try exact Idealize.SL.BI.Entails.refl _

/-- After the last point the invariant gives it back: what the scratch row holds is forgotten. -/
theorem region_out (c : Dev nD) : (dats m 0 c).Φ (Fin.last cfg0.N) ⊢ Pipeline.ΦA spec0 c := by
  rw [show (dats m 0 c).Φ (Fin.last cfg0.N) = PhiAcc m c (Fin.last cfg0.N).val (Nat.le_of_lt_succ (Fin.last cfg0.N).isLt) from rfl,
    PhiAcc_pos m c _ _ (by rw [Fin.val_last]; have : cfg0.N = 128 := N_0; omega), regionRest_eq]
  iintro ⟨HS, Hg⟩
  isplitl [HS]
  · iexists _; iexact HS
  iexact Hg

/-! ## The run and the frame -/

set_option backward.isDefEq.respectTransparency.types false in
/-- Every weakly fair execution of the program terminates without a fault, every array of the pipeline ending at what
    the proof data computes and every other unscoped buffer as the host operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := region_in m) (hout := region_out m)

/-- The program runs to the end, faults nowhere, and leaves its two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Chamfer

end
-- ==== Proof.IdealTileCases.lean ====
/-
  The grid of the nearest-neighbour kernel and the three kinds of point on it.

  The kernel walks 8 batches by 16 tiles of 128 query points. At every point it computes the 128 x 2048 squared
  distances between the tile's query points and all key points of the batch, stores the row minima (rooted) into the
  row output's block, and folds the column minima into a scratch row that lives across the 16 tiles of a batch: started
  on the first tile, lowered on each later tile, and on the last tile rooted and stored into the column output's block.
  This module decides, over the 128 grid points, which tile is first, later, last (as the body itself computes those
  conditions from the tile coordinate), where the column output is idle, and names the buffers the body is handed;
  and it proves the two facts about whole buffers every case uses: a load of a whole buffer reads its contents, and one
  whole store read back is the value stored.
-/
import proofs.«146239_j42021960024229_2_alg».proof.Proof.Gen.KernelIdeal.Launch
import proofs.«146239_j42021960024229_2_alg».proof.Proof.Gen.KernelIdeal.Skeleton
import proofs.«146239_j42021960024229_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three kinds of grid point

The grid is 8 batches by 16 tiles of 128 query points; point `t` is tile `t % 16` of batch `t / 16`. The body
branches on the tile number alone: on the first tile of a batch it starts the running column minimum, on every
later tile it lowers it, and on the last tile it also takes the square root and writes the column result. -/

/-- "This is the first tile of its batch", as the body computes it from the tile coordinate. -/
abbrev tileFirst (i : grid0.Coords) : Prop :=
  (Scalar.cmpi .ne (Scalar.extui (Scalar.cmpi .eq (BitVec.ofNat 32 (i 1).val) 0#32)) 0#32) = 1#1
/-- "This is a later tile of its batch". -/
abbrev tileLater (i : grid0.Coords) : Prop :=
  (Scalar.cmpi .ne (Scalar.extui (Scalar.cmpi .sgt (BitVec.ofNat 32 (i 1).val) 0#32)) 0#32) = 1#1
/-- "This is the last tile of its batch". -/
abbrev tileLast (i : grid0.Coords) : Prop := k0_cond3 i = 1#1

theorem tileFirst_iff : ∀ t : Fin cfg0.N, tileFirst (grid0.coords t) ↔ t.val % 16 = 0 :=
  (by decide +kernel : ∀ t : Fin grid0.N, tileFirst (grid0.coords t) ↔ t.val % 16 = 0)
theorem tileLater_iff : ∀ t : Fin cfg0.N, tileLater (grid0.coords t) ↔ t.val % 16 ≠ 0 :=
  (by decide +kernel : ∀ t : Fin grid0.N, tileLater (grid0.coords t) ↔ t.val % 16 ≠ 0)
theorem tileLast_iff : ∀ t : Fin cfg0.N, tileLast (grid0.coords t) ↔ t.val % 16 = 15 :=
  (by decide +kernel : ∀ t : Fin grid0.N, tileLast (grid0.coords t) ↔ t.val % 16 = 15)

/-! ## Which windows the body stores into, and when they are written back -/

theorem live_query : ∀ t : Fin cfg0.N, cfg0.idle 0 (grid0.coords t) = false := by decide +kernel
theorem live_keys : ∀ t : Fin cfg0.N, cfg0.idle 1 (grid0.coords t) = false := by decide +kernel
theorem live_rowOut : ∀ t : Fin cfg0.N, cfg0.idle 2 (grid0.coords t) = false := by decide +kernel
/-- Off the last tile the body stores nothing into the column output, -/
theorem idle_colOut : ∀ t : Fin cfg0.N, ¬tileLast (grid0.coords t) → cfg0.idle 3 (grid0.coords t) = true := by decide +kernel
/-- and the pipeline does not write it back there; -/
theorem noFlush_colOut : ∀ t : Fin cfg0.N, ¬tileLast (grid0.coords t) → (cfg0.win 3).flush t = false := by decide +kernel
/-- on the last tile it does store. -/
theorem live_colOut : ∀ t : Fin cfg0.N, tileLast (grid0.coords t) → cfg0.idle 3 (grid0.coords t) = false := by decide +kernel

/-! ## The buffers the body is called with -/

abbrev qBuf (t : Fin cfg0.N) : Memref sig .tc .vmem S1x3x128 .f32 := win0_0.stage (cfg0.slots t 0)
abbrev qWhole (t : Fin cfg0.N) : (qBuf t).IsWhole := hstage0_0 ((cfg0.slots t 0).cast nbuf0_0)
abbrev kBuf (t : Fin cfg0.N) : Memref sig .tc .vmem S1x3x2048 .f32 := win0_1.stage (cfg0.slots t 1)
abbrev kWhole (t : Fin cfg0.N) : (kBuf t).IsWhole := hstage0_1 ((cfg0.slots t 1).cast nbuf0_1)
abbrev rowBuf (t : Fin cfg0.N) : Memref sig .tc .vmem S1x1x128 .f32 := win0_2.stage (cfg0.slots t 2)
abbrev rowWhole (t : Fin cfg0.N) : (rowBuf t).IsWhole := hstage0_2 ((cfg0.slots t 2).cast nbuf0_2)
abbrev colBuf (t : Fin cfg0.N) : Memref sig .tc .vmem S1x1x2048 .f32 := win0_3.stage (cfg0.slots t 3)
abbrev colWhole (t : Fin cfg0.N) : (colBuf t).IsWhole := hstage0_3 ((cfg0.slots t 3).cast nbuf0_3)
/-- The scratch row that carries the running column minimum from one tile to the next. -/
abbrev accBuf : Memref sig .tc .vmem S1x2048 .f32 := Memref.whole cc0_scratch0

/-- What the region may use besides its windows: the scratch row at some contents, and the generator register. -/
theorem regionRest_eq (c : Dev nD) :
    (Pipeline.ΦA spec0 c : sProp 𝕄)
      = iprop(iprop((∃ d, owns (c : Thread nD τ) accBuf fullShare d)) ∗ (∃ r, prngReg c r)) := by
  unfold Pipeline.ΦA; rw [scopedRest0_eq]; simp only [accBuf, owns_whole]; try rfl

/-- One store of a whole buffer, read back, is the value stored, whatever the buffer held. -/
theorem read_stored_whole {sg : RefSig} {κ : Kind} {sp : Space} {S : Shape} {e : EltTy} [∀ e, Nonempty (Elt F e)]
    (v : View sg κ sp S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero h inb y⟩)).trans
    (View.canon_unit_zero h inb w)

/-- A load of a whole buffer reads what the buffer holds. -/
theorem load_whole {sp : Space} {S : Shape} {e : EltTy} (mr : Memref sig .tc sp S e) (h : mr.IsWhole)
    {off : Fin S.rank → Nat} (hz : off = fun _ => 0) (inb : ∀ a, off a + S.size a ≤ S.size a) (X : S.Idx → Elt F e) :
    mr.view.readAt (Elt F) (Rect.unit off S.size inb).toLoadRect (h.unread X) = X := by
  rw [View.readAt_eq_ld, h.read_unread, View.ld_unit_zero hz]

theorem zeros3 : (![0, 0, 0] : Fin 3 → Nat) = fun _ => 0 := by funext a; fin_cases a <;> rfl
theorem zeros2 : (![0, 0] : Fin 2 → Nat) = fun _ => 0 := by funext a; fin_cases a <;> rfl

end Cert.KernelIdeal.Chamfer

end
-- ==== Proof.IdealTileRuns.lean ====
/-
  The kernel body, run once in each of the three kinds of grid point.

  In every case the body is handed the query tile `x0`, the batch's keys `x1`, the row output's block, the column
  output's block and the scratch row, and leaves the row output's block at `k0_pay5 x0 x1` (the rooted row minima).
  With `col = k0_pay6 x0 x1` the tile's column minima:
   * first tile: the scratch row is overwritten with `col` (`k0_pay1 col`), the column output is not touched;
   * later tile: the scratch row `ys` becomes the entrywise minimum of `ys` and `col` (`k0_pay2 col ys`), the column
     output is not touched;
   * last tile: as a later tile, and the column output's block is left at the root of the new scratch row
     (`k0_pay3 (k0_pay2 col ys)`).
  Each triple is stated for arbitrary whole buffers and an arbitrary continuation, so that it applies at every point.
-/
import proofs.«146239_j42021960024229_2_alg».proof.Proof.IdealTileCases

set_option maxRecDepth 16384

noncomputable section

namespace Cert.KernelIdeal.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first tile of a batch. -/
theorem run_first (c : Dev nD) (i : grid0.Coords)
    (arg2 : Memref sig .tc .vmem S1x3x128 .f32) (harg2 : arg2.IsWhole)
    (arg3 : Memref sig .tc .vmem S1x3x2048 .f32) (harg3 : arg3.IsWhole)
    (arg4 : Memref sig .tc .vmem S1x1x128 .f32) (harg4 : arg4.IsWhole)
    (arg5 : Memref sig .tc .vmem S1x1x2048 .f32) (harg5 : arg5.IsWhole)
    (arg6 : Memref sig .tc .vmem S1x2048 .f32) (harg6 : arg6.IsWhole)
    (h1 : tileFirst i) (h2 : ¬tileLater i) (h3 : ¬tileLast i)
    (x0 : Vec F S1x3x128 .f32) (x1 : Vec F S1x3x2048 .f32) (y2 : Vec F S1x1x128 .f32) (y3 : Vec F S1x1x2048 .f32) (ys : Vec F S1x2048 .f32)
    (E : Set ℕ) (K : PUnit → sProp 𝕄) :
    iprop(owns (c : Thread nD τ) arg2 fullShare x0 ∗ owns (c : Thread nD τ) arg3 fullShare x1 ∗ owns (c : Thread nD τ) arg4 fullShare y2
        ∗ owns (c : Thread nD τ) arg5 fullShare y3 ∗ owns (c : Thread nD τ) arg6 fullShare ys
        ∗ (iprop(owns (c : Thread nD τ) arg2 fullShare x0 ∗ owns (c : Thread nD τ) arg3 fullShare x1
            ∗ owns (c : Thread nD τ) arg4 fullShare (k0_pay5 x0 x1) ∗ owns (c : Thread nD τ) arg5 fullShare y3
            ∗ owns (c : Thread nD τ) arg6 fullShare (k0_pay1 (k0_pay6 x0 x1))) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg6.eq_unread hfs
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [read_stored_whole _ _ zeros3, load_whole arg2 harg2 zeros3, load_whole arg3 harg3 zeros3]
  isplitl [H3]
  · iexists _; isplitr; · ipureintro; exact hf3
    iexact H3
  iexists _; isplitr
  swap; · iexact HS
  ipureintro
  sl_unfold_run_names
  rw [read_stored_whole _ _ zeros2]
  rw [load_whole arg2 harg2 zeros3, load_whole arg3 harg3 zeros3]

/-- A later tile that is not the last. -/
theorem run_later (c : Dev nD) (i : grid0.Coords)
    (arg2 : Memref sig .tc .vmem S1x3x128 .f32) (harg2 : arg2.IsWhole)
    (arg3 : Memref sig .tc .vmem S1x3x2048 .f32) (harg3 : arg3.IsWhole)
    (arg4 : Memref sig .tc .vmem S1x1x128 .f32) (harg4 : arg4.IsWhole)
    (arg5 : Memref sig .tc .vmem S1x1x2048 .f32) (harg5 : arg5.IsWhole)
    (arg6 : Memref sig .tc .vmem S1x2048 .f32) (harg6 : arg6.IsWhole)
    (h1 : ¬tileFirst i) (h2 : tileLater i) (h3 : ¬tileLast i)
    (x0 : Vec F S1x3x128 .f32) (x1 : Vec F S1x3x2048 .f32) (y2 : Vec F S1x1x128 .f32) (y3 : Vec F S1x1x2048 .f32) (ys : Vec F S1x2048 .f32)
    (E : Set ℕ) (K : PUnit → sProp 𝕄) :
    iprop(owns (c : Thread nD τ) arg2 fullShare x0 ∗ owns (c : Thread nD τ) arg3 fullShare x1 ∗ owns (c : Thread nD τ) arg4 fullShare y2
        ∗ owns (c : Thread nD τ) arg5 fullShare y3 ∗ owns (c : Thread nD τ) arg6 fullShare ys
        ∗ (iprop(owns (c : Thread nD τ) arg2 fullShare x0 ∗ owns (c : Thread nD τ) arg3 fullShare x1
            ∗ owns (c : Thread nD τ) arg4 fullShare (k0_pay5 x0 x1) ∗ owns (c : Thread nD τ) arg5 fullShare y3
            ∗ owns (c : Thread nD τ) arg6 fullShare (k0_pay2 (k0_pay6 x0 x1) ys)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg6.eq_unread hfs
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [read_stored_whole _ _ zeros3, load_whole arg2 harg2 zeros3, load_whole arg3 harg3 zeros3]
  isplitl [H3]
  · iexists _; isplitr; · ipureintro; exact hf3
    iexact H3
  iexists _; isplitr
  swap; · iexact HS
  ipureintro
  sl_unfold_run_names
  rw [read_stored_whole _ _ zeros2]
  rw [load_whole arg2 harg2 zeros3, load_whole arg3 harg3 zeros3, load_whole arg6 harg6 zeros2]

/-- The last tile of a batch. -/
theorem run_last (c : Dev nD) (i : grid0.Coords)
    (arg2 : Memref sig .tc .vmem S1x3x128 .f32) (harg2 : arg2.IsWhole)
    (arg3 : Memref sig .tc .vmem S1x3x2048 .f32) (harg3 : arg3.IsWhole)
    (arg4 : Memref sig .tc .vmem S1x1x128 .f32) (harg4 : arg4.IsWhole)
    (arg5 : Memref sig .tc .vmem S1x1x2048 .f32) (harg5 : arg5.IsWhole)
    (arg6 : Memref sig .tc .vmem S1x2048 .f32) (harg6 : arg6.IsWhole)
    (h1 : ¬tileFirst i) (h2 : tileLater i) (h3 : tileLast i)
    (x0 : Vec F S1x3x128 .f32) (x1 : Vec F S1x3x2048 .f32) (y2 : Vec F S1x1x128 .f32) (y3 : Vec F S1x1x2048 .f32) (ys : Vec F S1x2048 .f32)
    (E : Set ℕ) (K : PUnit → sProp 𝕄) :
    iprop(owns (c : Thread nD τ) arg2 fullShare x0 ∗ owns (c : Thread nD τ) arg3 fullShare x1 ∗ owns (c : Thread nD τ) arg4 fullShare y2
        ∗ owns (c : Thread nD τ) arg5 fullShare y3 ∗ owns (c : Thread nD τ) arg6 fullShare ys
        ∗ (iprop(owns (c : Thread nD τ) arg2 fullShare x0 ∗ owns (c : Thread nD τ) arg3 fullShare x1
            ∗ owns (c : Thread nD τ) arg4 fullShare (k0_pay5 x0 x1)
            ∗ owns (c : Thread nD τ) arg5 fullShare (k0_pay3 (k0_pay2 (k0_pay6 x0 x1) ys))
            ∗ owns (c : Thread nD τ) arg6 fullShare (k0_pay2 (k0_pay6 x0 x1) ys)) -∗ K ⟨⟩))
      ⊢ wp frame (wpE (defs₀ (F := F)) Variants.none c none) E (cc0__chamfer_kernel i arg2 harg2 arg3 harg3 arg4 harg4 arg5 harg5 arg6 harg6) K := by
  simp only [cc0__chamfer_kernel_eq_skeleton]; unfold cc0__chamfer_kernel_skel
  simp only [k0_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg6.eq_unread hfs
  sl_exec (disch := first | exact h1 | exact h2 | exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [read_stored_whole _ _ zeros3, load_whole arg2 harg2 zeros3, load_whole arg3 harg3 zeros3]
  isplitl [H3]
  · iexists _; isplitr
    swap; · iexact H3
    ipureintro
    sl_unfold_run_names
    rw [read_stored_whole _ _ zeros3]
    rw [View.readCov_unit_zero _ zeros2, load_whole arg2 harg2 zeros3, load_whole arg3 harg3 zeros3, load_whole arg6 harg6 zeros2]
  iexists _; isplitr
  swap; · iexact HS
  ipureintro
  sl_unfold_run_names
  rw [read_stored_whole _ _ zeros2]
  rw [load_whole arg2 harg2 zeros3, load_whole arg3 harg3 zeros3, load_whole arg6 harg6 zeros2]

end Cert.KernelIdeal.Chamfer

end
-- ==== Proof.IdealColumnAcc.lean ====
/-
  The running column minimum, point by point, and the kernel's run.

  `colAcc n` is what the scratch row holds after the body at grid position `n`: on the first tile of a batch the tile's
  column minima, on a later tile the entrywise minimum of those with what the position before left. The region's
  invariant carries exactly that in the scratch row from one point to the next (before the first point the scratch row
  holds anything). After the body each input window's buffer still holds its block, the row output's buffer holds the
  rooted row minima of the point's blocks, and the column output's buffer — stored into only on a batch's last tile, and
  only written back there — holds the root of the running column minimum. With this data every point's body obligation
  is the triple of the point's kind, and the launch theorem for a region followed by host operations gives the run: it
  terminates, nothing faults, and every array of the pipeline ends at what the data computes.
-/
import proofs.«146239_j42021960024229_2_alg».proof.Proof.IdealTileRuns
import proofs.«146239_j42021960024229_2_alg».proof.Proof.Gen.KernelIdeal.Frame

set_option maxRecDepth 16384

noncomputable section

namespace Cert.KernelIdeal.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the scratch row holds after the body at position `n`. -/
def colAcc (c : Dev nD) : (n : ℕ) → n < cfg0.N → Vec F S1x2048 .f32
  | 0, hn => k0_pay1 (k0_pay6 (iblk m c 0 ⟨0, hn⟩) (iblk m c 1 ⟨0, hn⟩))
  | n + 1, hn =>
    if (n + 1) % 16 = 0 then k0_pay1 (k0_pay6 (iblk m c 0 ⟨n + 1, hn⟩) (iblk m c 1 ⟨n + 1, hn⟩))
    else k0_pay2 (k0_pay6 (iblk m c 0 ⟨n + 1, hn⟩) (iblk m c 1 ⟨n + 1, hn⟩)) (colAcc c n (Nat.lt_of_succ_lt hn))

/-- On the first tile of a batch the scratch row is started afresh. -/
theorem colAcc_first (c : Dev nD) (t : Fin cfg0.N) (h : t.val % 16 = 0) :
    colAcc m c t.val t.isLt = k0_pay1 (k0_pay6 (iblk m c 0 t) (iblk m c 1 t)) := by
  obtain ⟨n, hn⟩ := t
  cases n with
  | zero => rfl
  | succ n => exact (if_pos h).trans rfl

/-- On a later tile it is lowered by the tile's column minima. -/
theorem colAcc_later (c : Dev nD) (t : Fin cfg0.N) (h : ¬t.val % 16 = 0) :
    colAcc m c t.val t.isLt
      = k0_pay2 (k0_pay6 (iblk m c 0 t) (iblk m c 1 t)) (colAcc m c (t.val - 1) (Nat.lt_of_le_of_lt (Nat.sub_le _ _) t.isLt)) := by
  obtain ⟨n, hn⟩ := t
  cases n with
  | zero => exact absurd (Nat.zero_mod _) h
  | succ n => exact (if_neg h).trans rfl

/-- The region's invariant before position `n`: before the first point whatever the launch hands over; afterwards the
    scratch row at what the position before left, and the generator register at some state. -/
def PhiAcc (c : Dev nD) : (n : ℕ) → n ≤ cfg0.N → sProp 𝕄
  | 0, _ => Pipeline.ΦA spec0 c
  | n + 1, hn => iprop(iprop(owns (c : Thread nD τ) accBuf fullShare (colAcc m c n hn)) ∗ (∃ r, prngReg c r))

theorem PhiAcc_zero (c : Dev nD) (n : ℕ) (h : n ≤ cfg0.N) (hz : n = 0) : PhiAcc m c n h = Pipeline.ΦA spec0 c := by
  subst hz; rfl

theorem PhiAcc_succ (c : Dev nD) (n : ℕ) (hn : n < cfg0.N) :
    PhiAcc m c (n + 1) hn = iprop(iprop(owns (c : Thread nD τ) accBuf fullShare (colAcc m c n hn)) ∗ (∃ r, prngReg c r)) := rfl

theorem PhiAcc_pos (c : Dev nD) (n : ℕ) (h : n ≤ cfg0.N) (hz : n ≠ 0) :
    PhiAcc m c n h = iprop(iprop(owns (c : Thread nD τ) accBuf fullShare (colAcc m c (n - 1) (by omega))) ∗ (∃ r, prngReg c r)) := by
  cases n with
  | zero => exact absurd rfl hz
  | succ n => rfl

/-! ## The proof data -/

/-- The pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay5 (iblk m c 0 t) (iblk m c 1 t)
    | ⟨3, _⟩ => k0_pay3 (colAcc m c t.val t.isLt)
  Φ t := PhiAcc m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiAcc m c t.val (Nat.le_of_lt t.isLt) := by
  dsimp only [dats]; simp only [Fin.coe_castSucc]

theorem after_query (c : Dev nD) (t : Fin cfg0.N) : (dats m 0 c).after 0 t = iblk m c 0 t := by dsimp only [dats]
theorem after_keys (c : Dev nD) (t : Fin cfg0.N) : (dats m 0 c).after 1 t = iblk m c 1 t := by dsimp only [dats]
theorem after_rowOut (c : Dev nD) (t : Fin cfg0.N) :
    (dats m 0 c).after 2 t = k0_pay5 (iblk m c 0 t) (iblk m c 1 t) := by dsimp only [dats]
theorem after_colOut (c : Dev nD) (t : Fin cfg0.N) :
    (dats m 0 c).after 3 t = k0_pay3 (colAcc m c t.val t.isLt) := by dsimp only [dats]

/-- Each input's current buffer holds its block at every point, fetched there or not. -/
theorem before_query (c : Dev nD) (t : Fin cfg0.N) (d) : (dats m 0 c).before 0 t d = iblk m c 0 t :=
  before0_0_of m (dats m 0 c) (A_eq m c 0) (after_query m c) t d
theorem before_keys (c : Dev nD) (t : Fin cfg0.N) (d) : (dats m 0 c).before 1 t d = iblk m c 1 t :=
  before0_1_of m (dats m 0 c) (A_eq m c 1) (after_keys m c) t d

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (qBuf t) fullShare ((dats m 0 c).before 0 t d))
    ∗ (∃ d, owns (c : Thread nD τ) (kBuf t) fullShare ((dats m 0 c).before 1 t d))
    ∗ (∃ d, owns (c : Thread nD τ) (rowBuf t) fullShare ((dats m 0 c).before 2 t d))
    ∗ (∃ d, owns (c : Thread nD τ) (colBuf t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point: the triple of the point's kind, between the invariant before and after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_query, before_keys]
  rw [show (dats m 0 c).owesAt () t.succ = (dats m 0 c).owesAt () t.castSucc from rfl]
  rw [show (dats m 0 c).Φ t.succ = PhiAcc m c (t.val + 1) t.isLt from rfl, PhiAcc_succ]
  rw [show (dats m 0 c).leavesExact 0 t = owns (c : Thread nD τ) (qBuf t) fullShare ((dats m 0 c).after 0 t) from by
    unfold Dat.leavesExact; rw [live_query t], after_query]
  rw [show (dats m 0 c).leavesExact 1 t = owns (c : Thread nD τ) (kBuf t) fullShare ((dats m 0 c).after 1 t) from by
    unfold Dat.leavesExact; rw [live_keys t], after_keys]
  rw [show (dats m 0 c).leavesExact 2 t = owns (c : Thread nD τ) (rowBuf t) fullShare ((dats m 0 c).after 2 t) from by
    unfold Dat.leavesExact; rw [live_rowOut t], after_rowOut]
  have hN : t.val < 128 := lt_of_lt_of_eq t.isLt (show cfg0.N = 128 from N_0)
  by_cases h0 : t.val % 16 = 0
  · have c1 : tileFirst (grid0.coords t) := (tileFirst_iff t).mpr h0
    have c2 : ¬tileLater (grid0.coords t) := fun h => (tileLater_iff t).mp h h0
    have c3 : ¬tileLast (grid0.coords t) := fun h => by have := (tileLast_iff t).mp h; omega
    rw [Dat.leavesExact_idle (dats m 0 c) 3 t (idle_colOut t c3) (noFlush_colOut t c3)]
    rw [colAcc_first m c t h0]
    by_cases hz : t.val = 0
    · rw [Phi_castSucc m c t, PhiAcc_zero m c _ _ hz, regionRest_eq]
      iintro ⟨⟨⟨%ds, HS⟩, Hg⟩, Ho, ⟨%d0, H0⟩, ⟨%d1, H1⟩, ⟨%d2, H2⟩, ⟨%d3, H3⟩⟩
      iapply (run_first c (grid0.coords t) (qBuf t) (qWhole t) (kBuf t) (kWhole t) (rowBuf t) (rowWhole t) (colBuf t) (colWhole t)
        accBuf (Memref.isWhole_whole _) c1 c2 c3 (iblk m c 0 t) (iblk m c 1 t) _ _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [Phi_castSucc m c t, PhiAcc_pos m c _ _ hz]
      iintro ⟨⟨HS, Hg⟩, Ho, ⟨%d0, H0⟩, ⟨%d1, H1⟩, ⟨%d2, H2⟩, ⟨%d3, H3⟩⟩
      iapply (run_first c (grid0.coords t) (qBuf t) (qWhole t) (kBuf t) (kWhole t) (rowBuf t) (rowWhole t) (colBuf t) (colWhole t)
        accBuf (Memref.isWhole_whole _) c1 c2 c3 (iblk m c 0 t) (iblk m c 1 t) _ _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
  · have c1 : ¬tileFirst (grid0.coords t) := fun h => h0 ((tileFirst_iff t).mp h)
    have c2 : tileLater (grid0.coords t) := (tileLater_iff t).mpr h0
    have hz : t.val ≠ 0 := fun h => h0 (by rw [h])
    rw [colAcc_later m c t h0]
    rw [Phi_castSucc m c t, PhiAcc_pos m c _ _ hz]
    by_cases h15 : t.val % 16 = 15
    · have c3 : tileLast (grid0.coords t) := (tileLast_iff t).mpr h15
      rw [show (dats m 0 c).leavesExact 3 t = owns (c : Thread nD τ) (colBuf t) fullShare ((dats m 0 c).after 3 t) from by
        unfold Dat.leavesExact; rw [live_colOut t c3], after_colOut, colAcc_later m c t h0]
      iintro ⟨⟨HS, Hg⟩, Ho, ⟨%d0, H0⟩, ⟨%d1, H1⟩, ⟨%d2, H2⟩, ⟨%d3, H3⟩⟩
      iapply (run_last c (grid0.coords t) (qBuf t) (qWhole t) (kBuf t) (kWhole t) (rowBuf t) (rowWhole t) (colBuf t) (colWhole t)
        accBuf (Memref.isWhole_whole _) c1 c2 c3 (iblk m c 0 t) (iblk m c 1 t) _ _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · have c3 : ¬tileLast (grid0.coords t) := fun h => h15 ((tileLast_iff t).mp h)
      rw [Dat.leavesExact_idle (dats m 0 c) 3 t (idle_colOut t c3) (noFlush_colOut t c3)]
      iintro ⟨⟨HS, Hg⟩, Ho, ⟨%d0, H0⟩, ⟨%d1, H1⟩, ⟨%d2, H2⟩, ⟨%d3, H3⟩⟩
      iapply (run_later c (grid0.coords t) (qBuf t) (qWhole t) (kBuf t) (kWhole t) (rowBuf t) (rowWhole t) (colBuf t) (colWhole t)
        accBuf (Memref.isWhole_whole _) c1 c2 c3 (iblk m c 0 t) (iblk m c 1 t) _ _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem region_in (c : Dev nD) : Pipeline.ΦA spec0 c ⊢ (dats m 0 c).Φ 0 := by
  rw [show (dats m 0 c).Φ 0 = PhiAcc m c 0 (Nat.zero_le _) from rfl, PhiAcc_zero m c 0 _ rfl]
  try exact Idealize.SL.BI.Entails.refl _

/-- After the last point the invariant gives it back: what the scratch row holds is forgotten. -/
theorem region_out (c : Dev nD) : (dats m 0 c).Φ (Fin.last cfg0.N) ⊢ Pipeline.ΦA spec0 c := by
  rw [show (dats m 0 c).Φ (Fin.last cfg0.N) = PhiAcc m c (Fin.last cfg0.N).val (Nat.le_of_lt_succ (Fin.last cfg0.N).isLt) from rfl,
    PhiAcc_pos m c _ _ (by rw [Fin.val_last]; have : cfg0.N = 128 := N_0; omega), regionRest_eq]
  iintro ⟨HS, Hg⟩
  isplitl [HS]
  · iexists _; iexact HS
  iexact Hg

/-! ## The run and the frame -/

set_option backward.isDefEq.respectTransparency.types false in
/-- Every weakly fair execution of the program terminates without a fault, every array of the pipeline ending at what
    the proof data computes and every other unscoped buffer as the host operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := region_in m) (hout := region_out m)

/-- The program runs to the end, faults nowhere, and leaves its two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Chamfer

end
-- ==== Proof.LibHalving.lean ====
/-
  Sums and least-folds over an index range of even length, read through its two halves.

  For `n = h + h` an index `i : Fin n` is either `j` or `h + j` with `j : Fin h`.  A sum over `Fin n` is the sum of
  the two half sums, hence the sum over `Fin h` of the entrywise sums of the halves; a fold of `min` from a start
  value `b` is the `min` of the two half folds, hence (`min` being idempotent on `b`) the fold over `Fin h` of the
  entrywise minima.  Read backwards these collapse a halving tree: adding (or taking the minimum of) the two halves of a
  row again and again, then reducing what is left, is reducing the whole row.

  The second part reads a `minimumf` reduction over one axis, at the ideal values, as such a fold; the third states the
  halving steps of a matrix at the ideal values, whose column halves are cut out by unit-stride slices and combined
  entrywise.
-/
import Idealize.ShloMosaic.PureOps.Ideal
import Idealize.ShloMosaic.PureOps.Ideal.Laws
import Idealize.ShloMosaic.Lib.ValueIdx
import Idealize.ShloMosaic.Lib.ValueLayout

namespace Cert.Halving

open Idealize.ShloMosaic Idealize.ShloMosaic.ValueIdx

/-! ## Index ranges of even length -/

/-- A sum over `Fin (h + h)` is the sum over the lower half plus the sum over the upper half. -/
theorem sum_split_halves {M : Type*} [AddCommMonoid M] {n h : ℕ} (hn : n = h + h) (f : Fin n → M) :
    ∑ i : Fin n, f i
      = (∑ j : Fin h, f ⟨j.val, by omega⟩) + ∑ j : Fin h, f ⟨h + j.val, by omega⟩ := by
  subst hn
  rw [Fin.sum_univ_add]
  rfl

/-- A sum over `Fin (h + h)` is the sum over `Fin h` of the two halves added entry by entry. -/
theorem sum_halve {M : Type*} [AddCommMonoid M] {n h : ℕ} (hn : n = h + h) (f : Fin n → M) :
    ∑ i : Fin n, f i = ∑ j : Fin h, (f ⟨j.val, by omega⟩ + f ⟨h + j.val, by omega⟩) := by
  rw [sum_split_halves hn, Finset.sum_add_distrib]

/-- A fold of `min` over `Fin (h + h)` is the `min` of the folds over the two halves, each from the same start. -/
theorem fold_min_split_halves {α : Type*} [LinearOrder α] {n h : ℕ} (hn : n = h + h) (b : α) (f : Fin n → α) :
    (Finset.univ : Finset (Fin n)).fold min b f
      = min ((Finset.univ : Finset (Fin h)).fold min b fun j => f ⟨j.val, by omega⟩)
            ((Finset.univ : Finset (Fin h)).fold min b fun j => f ⟨h + j.val, by omega⟩) := by
  refine eq_of_forall_le_iff fun c => ?_
  rw [le_min_iff, Finset.le_fold_min, Finset.le_fold_min, Finset.le_fold_min]
  constructor
  · rintro ⟨hb, hf⟩
    exact ⟨⟨hb, fun j _ => hf _ (Finset.mem_univ _)⟩, hb, fun j _ => hf _ (Finset.mem_univ _)⟩
  · rintro ⟨⟨hb, h1⟩, _, h2⟩
    refine ⟨hb, fun i _ => ?_⟩
    by_cases hi : i.val < h
    · exact h1 ⟨i.val, hi⟩ (Finset.mem_univ _)
    · have h3 := h2 ⟨i.val - h, by have := i.isLt; omega⟩ (Finset.mem_univ _)
      have e : (⟨h + (i.val - h), by have := i.isLt; omega⟩ : Fin n) = i := Fin.ext (by show h + (i.val - h) = i.val; omega)
      rwa [e] at h3

/-- A fold of `min` over `Fin (h + h)` is the fold over `Fin h` of the entrywise minima of the two halves. -/
theorem fold_min_halve {α : Type*} [LinearOrder α] {n h : ℕ} (hn : n = h + h) (b : α) (f : Fin n → α) :
    (Finset.univ : Finset (Fin n)).fold min b f
      = (Finset.univ : Finset (Fin h)).fold min b fun j => min (f ⟨j.val, by omega⟩) (f ⟨h + j.val, by omega⟩) := by
  have e := Finset.fold_op_distrib (op := min) (s := (Finset.univ : Finset (Fin h)))
    (f := fun j => f ⟨j.val, by omega⟩) (g := fun j => f ⟨h + j.val, by omega⟩) (b₁ := b) (b₂ := b)
  rw [min_self] at e
  rw [fold_min_split_halves hn]
  exact e.symm

/-! ## A least over one axis at the ideal values -/

/-- A `minimumf` reduction over one axis, read at the ideal values: the fold of `min`, from the accumulator's value, over
    that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## The column halves of a matrix at the ideal values -/

variable {φ : FTy} {n0 n1 m : ℕ}

/-- The entrywise minimum of a matrix's two column halves, read at `(a, j)`. -/
theorem minimumf_halves_apply (X : FVec Ideal ⟨2, ![n0, n1]⟩ φ)
    (h0 : (⟨2, ![n0, n1]⟩ : Shape).Slices ![0, 0] ⟨2, ![n0, m]⟩)
    (h1 : (⟨2, ![n0, n1]⟩ : Shape).Slices ![0, m] ⟨2, ![n0, m]⟩) (hn : n1 = m + m) (a : Fin n0) (j : Fin m) :
    minimumf (extractStridedSlice ⟨2, ![n0, m]⟩ ![0, 0] X h0) (extractStridedSlice ⟨2, ![n0, m]⟩ ![0, m] X h1) (ix2 a j)
      = min (X (ix2 a ⟨j.val, by omega⟩)) (X (ix2 a ⟨m + j.val, by omega⟩)) := by
  rw [minimumf_apply, slice2_axis1_apply 0 X h0 a j ⟨j.val, by omega⟩ (Nat.zero_add _).symm,
    slice2_axis1_apply m X h1 a j ⟨m + j.val, by omega⟩ rfl]

/-- The entrywise sum of a matrix's two column halves, read at `(a, j)`. -/
theorem addf_halves_apply (X : FVec Ideal ⟨2, ![n0, n1]⟩ φ)
    (h0 : (⟨2, ![n0, n1]⟩ : Shape).Slices ![0, 0] ⟨2, ![n0, m]⟩)
    (h1 : (⟨2, ![n0, n1]⟩ : Shape).Slices ![0, m] ⟨2, ![n0, m]⟩) (hn : n1 = m + m) (a : Fin n0) (j : Fin m) :
    addf (extractStridedSlice ⟨2, ![n0, m]⟩ ![0, 0] X h0) (extractStridedSlice ⟨2, ![n0, m]⟩ ![0, m] X h1) (ix2 a j)
      = X (ix2 a ⟨j.val, by omega⟩) + X (ix2 a ⟨m + j.val, by omega⟩) := by
  rw [addf_apply, slice2_axis1_apply 0 X h0 a j ⟨j.val, by omega⟩ (Nat.zero_add _).symm,
    slice2_axis1_apply m X h1 a j ⟨m + j.val, by omega⟩ rfl]

/-- One step of a halving tree of minima: the least, from `b`, of row `a` of the halved matrix is the least of row `a`
    of the matrix. -/
theorem fold_min_halves (X : FVec Ideal ⟨2, ![n0, n1]⟩ φ)
    (h0 : (⟨2, ![n0, n1]⟩ : Shape).Slices ![0, 0] ⟨2, ![n0, m]⟩)
    (h1 : (⟨2, ![n0, n1]⟩ : Shape).Slices ![0, m] ⟨2, ![n0, m]⟩) (hn : n1 = m + m) (b : EReal) (a : Fin n0) :
    ((Finset.univ : Finset (Fin m)).fold min b fun j =>
        minimumf (extractStridedSlice ⟨2, ![n0, m]⟩ ![0, 0] X h0) (extractStridedSlice ⟨2, ![n0, m]⟩ ![0, m] X h1) (ix2 a j))
      = (Finset.univ : Finset (Fin n1)).fold min b fun c => X (ix2 a c) := by
  rw [fold_min_halve hn b fun c => X (ix2 a c)]
  exact Finset.fold_congr fun j _ => minimumf_halves_apply X h0 h1 hn a j

/-- One step of a halving tree of sums: the sum of row `a` of the halved matrix is the sum of row `a` of the matrix. -/
theorem sum_halves (X : FVec Ideal ⟨2, ![n0, n1]⟩ φ)
    (h0 : (⟨2, ![n0, n1]⟩ : Shape).Slices ![0, 0] ⟨2, ![n0, m]⟩)
    (h1 : (⟨2, ![n0, n1]⟩ : Shape).Slices ![0, m] ⟨2, ![n0, m]⟩) (hn : n1 = m + m) (a : Fin n0) :
    (∑ j : Fin m,
        addf (extractStridedSlice ⟨2, ![n0, m]⟩ ![0, 0] X h0) (extractStridedSlice ⟨2, ![n0, m]⟩ ![0, m] X h1) (ix2 a j))
      = ∑ c : Fin n1, X (ix2 a c) := by
  rw [sum_halve hn fun c => X (ix2 a c)]
  exact Finset.sum_congr rfl fun j _ => addf_halves_apply X h0 h1 hn a j

end Cert.Halving
-- ==== Proof.IdealTileValues.lean ====
/-
  The body's arithmetic read at an index, on the extended reals.

  A tile is 128 query points `x0` (3 coordinates each, coordinate-major) against the batch's 2048 key points `x1`.
  Coordinate `ch` of the queries is cut out, turned into a column and spread along the key axis; coordinate `ch` of the
  keys is cut out, turned into a row and spread along the query axis; so entry `(r, mm)` of the difference is
  `x0(ch, r) − x1(ch, mm)`, and `k0_pay4` at `(r, mm)` is the three squared differences added left to right. Its least
  along the key axis, rooted, is `k0_pay5` at `r`; its least along the query axis is `k0_pay6` at `mm`. The scratch row
  is started as that (`k0_pay1`), lowered entrywise by it (`k0_pay2`), and rooted into the column output (`k0_pay3`).
  The reductions start from the word of `+∞`, which is `⊤`.
-/
import proofs.«146239_j42021960024229_2_alg».proof.Proof.Gen.KernelIdeal.Skeleton
import proofs.«146239_j42021960024229_2_alg».proof.Proof.LibHalving
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Chamfer

open Idealize.ShloMosaic Idealize.ShloMosaic.ValueIdx
open Cert.KernelIdeal Cert.KernelIdeal.Gen

/-- The word of `+∞` is `⊤`. -/
theorem inf_word : (FloatOps.ofBits (F := Ideal) .f32 0x7F800000#32 : EReal) = ⊤ := by
  simp [Ideal.ofBits, Ideal.ieee]

/-! ## The layout steps, each at explicit coordinates -/

section Layout
variable {α : Type}

theorem spread_along_keys (v : S1x128x1.Idx → α) (r : Fin 128) (mm : Fin 2048) :
    broadcastTo S1x128x2048 v broadcasts_S1x128x1_S1x128x2048 (ix3 (0 : Fin 1) r mm) = v (ix3 (0 : Fin 1) r (0 : Fin 1)) :=
  broadcastTo_apply v _ _ _ fun a => match a with | ⟨0, _⟩ => rfl | ⟨1, _⟩ => rfl | ⟨2, _⟩ => rfl

theorem spread_along_queries (v : S1x1x2048.Idx → α) (r : Fin 128) (mm : Fin 2048) :
    broadcastTo S1x128x2048 v broadcasts_S1x1x2048_S1x128x2048 (ix3 (0 : Fin 1) r mm) = v (ix3 (0 : Fin 1) (0 : Fin 1) mm) :=
  broadcastTo_apply v _ _ _ fun a => match a with | ⟨0, _⟩ => rfl | ⟨1, _⟩ => rfl | ⟨2, _⟩ => rfl

theorem column_of_row (v : S1x128.Idx → α) (r : Fin 128) :
    shapeCast S1x128x1 v shapeCasts_S1x128_S1x128x1 (ix3 (0 : Fin 1) r (0 : Fin 1)) = v (ix2 (0 : Fin 1) r) :=
  shapeCast_apply v _ _ _ (by
    rw [Shape.rowMajor_val_two, Shape.rowMajor_val_three]
    show (0 : ℕ) * 128 + r.val = ((0 : ℕ) * 128 + r.val) * 1 + 0
    omega)

theorem row_of_unit128 (v : S1x1x128.Idx → α) (r : Fin 128) :
    shapeCast S1x128 v shapeCasts_S1x1x128_S1x128 (ix2 (0 : Fin 1) r) = v (ix3 (0 : Fin 1) (0 : Fin 1) r) :=
  shapeCast_apply v _ _ _ (by
    rw [Shape.rowMajor_val_three, Shape.rowMajor_val_two]
    show ((0 : ℕ) * 1 + 0) * 128 + r.val = (0 : ℕ) * 128 + r.val
    omega)

theorem unit_of_row128 (v : S1x128.Idx → α) (r : Fin 128) :
    shapeCast S1x1x128 v shapeCasts_S1x128_S1x1x128 (ix3 (0 : Fin 1) (0 : Fin 1) r) = v (ix2 (0 : Fin 1) r) :=
  shapeCast_apply v _ _ _ (by
    rw [Shape.rowMajor_val_two, Shape.rowMajor_val_three]
    show (0 : ℕ) * 128 + r.val = ((0 : ℕ) * 1 + 0) * 128 + r.val
    omega)

theorem row_of_unit2048 (v : S1x1x2048.Idx → α) (mm : Fin 2048) :
    shapeCast S1x2048 v shapeCasts_S1x1x2048_S1x2048 (ix2 (0 : Fin 1) mm) = v (ix3 (0 : Fin 1) (0 : Fin 1) mm) :=
  shapeCast_apply v _ _ _ (by
    rw [Shape.rowMajor_val_three, Shape.rowMajor_val_two]
    show ((0 : ℕ) * 1 + 0) * 2048 + mm.val = (0 : ℕ) * 2048 + mm.val
    omega)

theorem unit_of_row2048 (v : S1x2048.Idx → α) (mm : Fin 2048) :
    shapeCast S1x1x2048 v shapeCasts_S1x2048_S1x1x2048 (ix3 (0 : Fin 1) (0 : Fin 1) mm) = v (ix2 (0 : Fin 1) mm) :=
  shapeCast_apply v _ _ _ (by
    rw [Shape.rowMajor_val_two, Shape.rowMajor_val_three]
    show (0 : ℕ) * 2048 + mm.val = ((0 : ℕ) * 1 + 0) * 2048 + mm.val
    omega)

theorem query_coord0 (v : S1x3x128.Idx → α) (r : Fin 128) :
    extractStridedSlice S1x1x128 ![0, 0, 0] v slices_S1x3x128_o0_0_0_S1x1x128 (ix3 (0 : Fin 1) (0 : Fin 1) r) = v (ix3 (0 : Fin 1) (0 : Fin 3) r) :=
  extractStridedSlice_apply _ v _ _ _ fun a => match a with | ⟨0, _⟩ => rfl | ⟨1, _⟩ => rfl | ⟨2, _⟩ => (Nat.zero_add _).symm
theorem query_coord1 (v : S1x3x128.Idx → α) (r : Fin 128) :
    extractStridedSlice S1x1x128 ![0, 1, 0] v slices_S1x3x128_o0_1_0_S1x1x128 (ix3 (0 : Fin 1) (0 : Fin 1) r) = v (ix3 (0 : Fin 1) (1 : Fin 3) r) :=
  extractStridedSlice_apply _ v _ _ _ fun a => match a with | ⟨0, _⟩ => rfl | ⟨1, _⟩ => rfl | ⟨2, _⟩ => (Nat.zero_add _).symm
theorem query_coord2 (v : S1x3x128.Idx → α) (r : Fin 128) :
    extractStridedSlice S1x1x128 ![0, 2, 0] v slices_S1x3x128_o0_2_0_S1x1x128 (ix3 (0 : Fin 1) (0 : Fin 1) r) = v (ix3 (0 : Fin 1) (2 : Fin 3) r) :=
  extractStridedSlice_apply _ v _ _ _ fun a => match a with | ⟨0, _⟩ => rfl | ⟨1, _⟩ => rfl | ⟨2, _⟩ => (Nat.zero_add _).symm
theorem key_coord0 (v : S1x3x2048.Idx → α) (mm : Fin 2048) :
    extractStridedSlice S1x1x2048 ![0, 0, 0] v slices_S1x3x2048_o0_0_0_S1x1x2048 (ix3 (0 : Fin 1) (0 : Fin 1) mm) = v (ix3 (0 : Fin 1) (0 : Fin 3) mm) :=
  extractStridedSlice_apply _ v _ _ _ fun a => match a with | ⟨0, _⟩ => rfl | ⟨1, _⟩ => rfl | ⟨2, _⟩ => (Nat.zero_add _).symm
theorem key_coord1 (v : S1x3x2048.Idx → α) (mm : Fin 2048) :
    extractStridedSlice S1x1x2048 ![0, 1, 0] v slices_S1x3x2048_o0_1_0_S1x1x2048 (ix3 (0 : Fin 1) (0 : Fin 1) mm) = v (ix3 (0 : Fin 1) (1 : Fin 3) mm) :=
  extractStridedSlice_apply _ v _ _ _ fun a => match a with | ⟨0, _⟩ => rfl | ⟨1, _⟩ => rfl | ⟨2, _⟩ => (Nat.zero_add _).symm
theorem key_coord2 (v : S1x3x2048.Idx → α) (mm : Fin 2048) :
    extractStridedSlice S1x1x2048 ![0, 2, 0] v slices_S1x3x2048_o0_2_0_S1x1x2048 (ix3 (0 : Fin 1) (0 : Fin 1) mm) = v (ix3 (0 : Fin 1) (2 : Fin 3) mm) :=
  extractStridedSlice_apply _ v _ _ _ fun a => match a with | ⟨0, _⟩ => rfl | ⟨1, _⟩ => rfl | ⟨2, _⟩ => (Nat.zero_add _).symm

end Layout

/-! ## The tile's squared distances and their least along each axis -/

/-- Entry `(r, mm)` of the tile: the squared distance between query `r` and key `mm`. -/
theorem tile_sq (x0 : Vec Ideal S1x3x128 .f32) (x1 : Vec Ideal S1x3x2048 .f32) (r : Fin 128) (mm : Fin 2048) :
    k0_pay4 (F := Ideal) x0 x1 (ix3 (0 : Fin 1) r mm)
      = (x0 (ix3 (0 : Fin 1) (0 : Fin 3) r) - x1 (ix3 (0 : Fin 1) (0 : Fin 3) mm)) * (x0 (ix3 (0 : Fin 1) (0 : Fin 3) r) - x1 (ix3 (0 : Fin 1) (0 : Fin 3) mm))
        + (x0 (ix3 (0 : Fin 1) (1 : Fin 3) r) - x1 (ix3 (0 : Fin 1) (1 : Fin 3) mm)) * (x0 (ix3 (0 : Fin 1) (1 : Fin 3) r) - x1 (ix3 (0 : Fin 1) (1 : Fin 3) mm))
        + (x0 (ix3 (0 : Fin 1) (2 : Fin 3) r) - x1 (ix3 (0 : Fin 1) (2 : Fin 3) mm)) * (x0 (ix3 (0 : Fin 1) (2 : Fin 3) r) - x1 (ix3 (0 : Fin 1) (2 : Fin 3) mm)) := by
  unfold k0_pay4
  simp only [addf_apply, mulf_apply, subf_apply, spread_along_keys, spread_along_queries, column_of_row, row_of_unit128,
    row_of_unit2048, unit_of_row2048, query_coord0, query_coord1, query_coord2, key_coord0, key_coord1, key_coord2, shapeCast_self]

/-- The entrywise root, at an entry. -/
theorem sqrt_at {s : Shape} (v : FVec Ideal s .f32) (i : s.Idx) : sqrt v i = Ideal.sqrt (v i) := rfl

/-- A row index with key coordinate `k` put back on the last axis. -/
theorem lift_keys (h : S1x128x2048.Reduces [2] S1x128) (r : Fin 128) (k : Fin (S1x128x2048.size 2)) :
    h.lift (ix2 (0 : Fin 1) r) k = ix3 (0 : Fin 1) r (⟨k.val, k.isLt⟩ : Fin 2048) :=
  funext fun c => Fin.ext (by match c with | ⟨0, _⟩ => rfl | ⟨1, _⟩ => rfl | ⟨2, _⟩ => rfl)

/-- A column index with query coordinate `k` put back on the middle axis. -/
theorem lift_queries (h : S1x128x2048.Reduces [1] S1x2048) (mm : Fin 2048) (k : Fin (S1x128x2048.size 1)) :
    h.lift (ix2 (0 : Fin 1) mm) k = ix3 (0 : Fin 1) (⟨k.val, k.isLt⟩ : Fin 128) mm :=
  funext fun c => Fin.ext (by match c with | ⟨0, _⟩ => rfl | ⟨1, _⟩ => rfl | ⟨2, _⟩ => rfl)

/-- The rooted least along the key axis. -/
theorem tile_rowmin (x0 : Vec Ideal S1x3x128 .f32) (x1 : Vec Ideal S1x3x2048 .f32) (r : Fin 128) :
    k0_pay5 (F := Ideal) x0 x1 (ix3 (0 : Fin 1) (0 : Fin 1) r)
      = Ideal.sqrt ((Finset.univ : Finset (Fin 2048)).fold min ⊤ fun mm => k0_pay4 (F := Ideal) x0 x1 (ix3 (0 : Fin 1) r mm)) := by
  unfold k0_pay5
  rw [unit_of_row128, sqrt_at]
  refine congrArg Ideal.sqrt ?_
  refine (Cert.Halving.multiReduction_minimumf_single (k0_pay4 (F := Ideal) x0 x1) 0x7F800000#32
    reduces_S1x128x2048_S1x128 (.inl rfl) rfl (ix2 (0 : Fin 1) r)).trans ?_
  have hf : (k0_pay4 (F := Ideal) x0 x1 ∘ (reduces_S1x128x2048_S1x128).lift (ix2 (0 : Fin 1) r))
      = fun mm : Fin 2048 => k0_pay4 (F := Ideal) x0 x1 (ix3 (0 : Fin 1) r mm) :=
    funext fun k => congrArg (k0_pay4 (F := Ideal) x0 x1) (lift_keys _ r k)
  rw [hf, inf_word]
  rfl

/-- The least along the query axis. -/
theorem tile_colmin (x0 : Vec Ideal S1x3x128 .f32) (x1 : Vec Ideal S1x3x2048 .f32) (mm : Fin 2048) :
    k0_pay6 (F := Ideal) x0 x1 (ix2 (0 : Fin 1) mm)
      = (Finset.univ : Finset (Fin 128)).fold min ⊤ fun r => k0_pay4 (F := Ideal) x0 x1 (ix3 (0 : Fin 1) r mm) := by
  unfold k0_pay6
  refine (Cert.Halving.multiReduction_minimumf_single (k0_pay4 (F := Ideal) x0 x1) 0x7F800000#32
    reduces_S1x128x2048_S1x2048 (.inl rfl) rfl (ix2 (0 : Fin 1) mm)).trans ?_
  have hf : (k0_pay4 (F := Ideal) x0 x1 ∘ (reduces_S1x128x2048_S1x2048).lift (ix2 (0 : Fin 1) mm))
      = fun r : Fin 128 => k0_pay4 (F := Ideal) x0 x1 (ix3 (0 : Fin 1) r mm) :=
    funext fun k => congrArg (k0_pay4 (F := Ideal) x0 x1) (lift_queries _ mm k)
  rw [hf, inf_word]
  rfl

/-! ## The scratch row's three updates -/

theorem acc_started (v : FVec Ideal S1x2048 .f32) : k0_pay1 (F := Ideal) v = v := by
  unfold k0_pay1; exact shapeCast_self _ _

theorem acc_lowered (v : FVec Ideal S1x2048 .f32) (ys : Vec Ideal S1x2048 .f32) (mm : Fin 2048) :
    k0_pay2 (F := Ideal) v ys (ix2 (0 : Fin 1) mm) = min (ys (ix2 (0 : Fin 1) mm)) (v (ix2 (0 : Fin 1) mm)) := by
  unfold k0_pay2; rw [shapeCast_self]; rfl

theorem acc_rooted (ys : Vec Ideal S1x2048 .f32) (mm : Fin 2048) :
    k0_pay3 (F := Ideal) ys (ix3 (0 : Fin 1) (0 : Fin 1) mm) = Ideal.sqrt (ys (ix2 (0 : Fin 1) mm)) := by
  unfold k0_pay3; rw [unit_of_row2048, sqrt_at]

end Cert.KernelIdeal.Chamfer

end
-- ==== Proof.ChamferSpec.lean ====
/-
  The two nearest-neighbour distances between two clouds of 2048 points in 3-space, for 8 batches, on the extended reals.

  `sqDist a b bt n m` is the squared Euclidean distance between query point `n` and key point `m` of batch `bt`:
  the three squared coordinate differences, added left to right. `nearestKey` is, for a query point, the square root of
  the least squared distance to any key point; `nearestQuery` the same for a key point over all query points. "Least"
  is a fold of `min` starting from `⊤`.

  The square root on the extended reals (`⊥` below zero, `⊤` at `⊤`) is monotone, so it commutes with `min`, fixes the
  start value `⊤`, and therefore commutes with the fold: the root of the least is the least of the roots
  (`sqrt_fold_min`). That is the whole difference between taking roots before or after minimising.
-/
import Idealize.ShloMosaic.PureOps.Ideal
import Idealize.ShloMosaic.Lib.ValueIdx

noncomputable section

namespace Cert.Chamfer

open Idealize.ShloMosaic Idealize.ShloMosaic.ValueIdx

/-- A cloud array: 8 batches of 2048 points with 3 coordinates. -/
abbrev Cloud : Type := (⟨3, ![8, 2048, 3]⟩ : Shape).Idx → EReal

/-- The squared distance between query point `n` and key point `m` of batch `bt`. -/
def sqDist (a b : Cloud) (bt : Fin 8) (n m : Fin 2048) : EReal :=
  (a (ix3 bt n (0 : Fin 3)) - b (ix3 bt m (0 : Fin 3))) * (a (ix3 bt n (0 : Fin 3)) - b (ix3 bt m (0 : Fin 3)))
    + (a (ix3 bt n (1 : Fin 3)) - b (ix3 bt m (1 : Fin 3))) * (a (ix3 bt n (1 : Fin 3)) - b (ix3 bt m (1 : Fin 3)))
    + (a (ix3 bt n (2 : Fin 3)) - b (ix3 bt m (2 : Fin 3))) * (a (ix3 bt n (2 : Fin 3)) - b (ix3 bt m (2 : Fin 3)))

/-- The distance from query point `n` to the nearest key point. -/
def nearestKey (a b : Cloud) (bt : Fin 8) (n : Fin 2048) : EReal :=
  Ideal.sqrt ((Finset.univ : Finset (Fin 2048)).fold min ⊤ fun m => sqDist a b bt n m)

/-- The distance from key point `m` to the nearest query point. -/
def nearestQuery (a b : Cloud) (bt : Fin 8) (m : Fin 2048) : EReal :=
  Ideal.sqrt ((Finset.univ : Finset (Fin 2048)).fold min ⊤ fun n => sqDist a b bt n m)

/-- The square root on the extended reals is monotone. -/
theorem sqrt_mono : Monotone Ideal.sqrt := by
  intro x y hxy
  induction x using EReal.rec with
  | bot => exact bot_le
  | top => rw [top_le_iff.mp hxy]
  | coe r =>
    induction y using EReal.rec with
    | bot => exact absurd hxy (by simp)
    | top => rw [Ideal.sqrt_top]; exact le_top
    | coe s =>
      have hrs : r ≤ s := EReal.coe_le_coe_iff.mp hxy
      rw [Ideal.sqrt_coe, Ideal.sqrt_coe]
      by_cases hr : r < 0
      · rw [if_pos hr]; exact bot_le
      · rw [if_neg hr, if_neg (by linarith)]
        exact EReal.coe_le_coe_iff.mpr (Real.sqrt_le_sqrt hrs)

/-- The root of the least is the least of the roots. -/
theorem sqrt_fold_min {ι : Type*} (s : Finset ι) (f : ι → EReal) :
    Ideal.sqrt (s.fold min ⊤ f) = s.fold min ⊤ fun i => Ideal.sqrt (f i) := by
  have h := Finset.fold_hom (op := min) (op' := min) (m := Ideal.sqrt) (s := s) (b := ⊤) (f := f)
    (fun x y => sqrt_mono.map_min)
  rw [Ideal.sqrt_top] at h
  exact h.symm

end Cert.Chamfer

end
-- ==== Proof.IdealNearest.lean ====
/-
  What the two output arrays hold after the run, in terms of the two clouds as launched.

  Point `t` of the grid is batch `t / 16`, tile `t % 16`. The query window's block there is rows `128·(t % 16) + r` of the
  batch's transposed queries, the key window's block the batch's transposed keys; the host transposes both clouds before
  the region, so entry `(ch, r)` of the query block is coordinate `ch` of query point `128·(t % 16) + r`. Hence the tile's
  entry `(r, mm)` is the specification's squared distance between that query point and key point `mm`, and the row
  output's block at `t` is the nearest-key distance of the tile's 128 query points.

  For the columns: after point `t` the scratch row at `mm` is a lower bound of exactly the squared distances from key
  `mm` to the query points of tiles `0 … t % 16` of the batch — proved for every point by induction, a first tile
  starting afresh and a later tile taking the minimum with what the point before left. On the last tile those are all
  2048 query points, so the scratch row is the least squared distance and its root, stored into the column output's
  block, is the nearest-query distance.

  The row output's blocks tile its array (one block per point); the column output's block is written back once per
  batch, on the last tile, and those eight blocks tile its array. So both arrays end as the specification's functions.
-/
import proofs.«146239_j42021960024229_2_alg».proof.Proof.IdealColumnAcc
import proofs.«146239_j42021960024229_2_alg».proof.Proof.IdealTileValues
import proofs.«146239_j42021960024229_2_alg».proof.Proof.ChamferSpec
import Idealize.ShloMosaic.Lib.ValueLayout
import Idealize.ShloMosaic.Lib.StableHlo.Run

set_option maxRecDepth 16384

noncomputable section

namespace Cert.KernelIdeal.Chamfer

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Chamfer (sqDist nearestKey nearestQuery)

variable (m : (ℓ : Loc nD τ sig) → Buf (Elt Ideal) ℓ)

/-! ## Grid points as batch and tile -/

theorem point_lt (t : Fin cfg0.N) : t.val < 128 := lt_of_lt_of_eq t.isLt (show cfg0.N = 128 from N_0)

/-- The batch a grid point works on. -/
def batchOf (t : Fin cfg0.N) : Fin 8 := ⟨t.val / 16, by have := point_lt t; omega⟩
/-- Query point `r` of the tile a grid point works on, as a point of the batch. -/
def queryOf (t : Fin cfg0.N) (r : Fin 128) : Fin 2048 := ⟨128 * (t.val % 16) + r.val, by have := r.isLt; omega⟩

/-- The printed index maps, decided over the grid: every window is on batch `t / 16`; the query window and the row
    output are on tile `t % 16`, the key window and the column output on the whole batch. -/
theorem index_facts : ∀ t : Fin cfg0.N,
    win0_0.index t (0 : Fin 3) = t.val / 16 ∧ win0_0.index t (1 : Fin 3) = 0 ∧ win0_0.index t (2 : Fin 3) = t.val % 16
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = t.val % 16
    ∧ win0_3.index t (0 : Fin 3) = t.val / 16 ∧ win0_3.index t (1 : Fin 3) = 0 ∧ win0_3.index t (2 : Fin 3) = 0 :=
  (by decide +kernel : ∀ t : Fin grid0.N, _)

/-! ## The input blocks at array coordinates -/

/-- The region finds the first cloud transposed: coordinate-major. -/
theorem queries_entry (c : Dev nD) :
    (V m c main_v0 : S8x3x2048.Idx → EReal)
      = transpose S8x3x2048 [0, 2, 1] (m ((c : Thread nD τ).loc main_arg0)) transposes_S8x2048x3_S8x3x2048_0_2_1 := by
  show StableHlo.after hostOps0 (fun b => m (c, b)) (Proc.devRef .tc main_v0) = _
  after_results

/-- And the second. -/
theorem keys_entry (c : Dev nD) :
    (V m c main_v1 : S8x3x2048.Idx → EReal)
      = transpose S8x3x2048 [0, 2, 1] (m ((c : Thread nD τ).loc main_arg1)) transposes_S8x2048x3_S8x3x2048_0_2_1 := by
  show StableHlo.after hostOps0 (fun b => m (c, b)) (Proc.devRef .tc main_v1) = _
  after_results

/-- Entry `(ch, r)` of the query block at `t` is coordinate `ch` of the tile's query point `r`. -/
theorem query_block (c : Dev nD) (t : Fin cfg0.N) (ch : Fin 3) (r : Fin 128) :
    iblk m c 0 t (ix3 (0 : Fin 1) ch r) = m ((c : Thread nD τ).loc main_arg0) (ix3 (batchOf t) (queryOf t r) ch) := by
  obtain ⟨e0, e1, e2, -⟩ := index_facts t
  have he : ((cfg0.win 0).blk t).view.emb (ix3 (0 : Fin 1) ch r) = ix3 (batchOf t) ch (queryOf t r) := by
    funext a; apply Fin.ext
    match a with
    | ⟨0, _⟩ => show win0_0.index t (0 : Fin 3) * 1 + 1 * 0 = t.val / 16; omega
    | ⟨1, _⟩ => show win0_0.index t (1 : Fin 3) * 3 + 1 * ch.val = ch.val; omega
    | ⟨2, _⟩ => show win0_0.index t (2 : Fin 3) * 128 + 1 * r.val = 128 * (t.val % 16) + r.val; omega
  show V m c main_v0 (((cfg0.win 0).blk t).view.emb (ix3 (0 : Fin 1) ch r)) = _
  rw [he, queries_entry, transpose_ix3_021_apply]

/-- Entry `(ch, mm)` of the key block at `t` is coordinate `ch` of the batch's key point `mm`. -/
theorem key_block (c : Dev nD) (t : Fin cfg0.N) (ch : Fin 3) (mm : Fin 2048) :
    iblk m c 1 t (ix3 (0 : Fin 1) ch mm) = m ((c : Thread nD τ).loc main_arg1) (ix3 (batchOf t) mm ch) := by
  obtain ⟨-, -, -, e0, e1, e2, -⟩ := index_facts t
  have he : ((cfg0.win 1).blk t).view.emb (ix3 (0 : Fin 1) ch mm) = ix3 (batchOf t) ch mm := by
    funext a; apply Fin.ext
    match a with
    | ⟨0, _⟩ => show win0_1.index t (0 : Fin 3) * 1 + 1 * 0 = t.val / 16; omega
    | ⟨1, _⟩ => show win0_1.index t (1 : Fin 3) * 3 + 1 * ch.val = ch.val; omega
    | ⟨2, _⟩ => show win0_1.index t (2 : Fin 3) * 2048 + 1 * mm.val = mm.val; omega
  show V m c main_v1 (((cfg0.win 1).blk t).view.emb (ix3 (0 : Fin 1) ch mm)) = _
  rw [he, keys_entry, transpose_ix3_021_apply]

/-- The tile's entry `(r, mm)` is the squared distance between the tile's query point `r` and key point `mm`. -/
theorem tile_entry (c : Dev nD) (t : Fin cfg0.N) (r : Fin 128) (mm : Fin 2048) :
    k0_pay4 (F := Ideal) (iblk m c 0 t) (iblk m c 1 t) (ix3 (0 : Fin 1) r mm)
      = sqDist (m ((c : Thread nD τ).loc main_arg0)) (m ((c : Thread nD τ).loc main_arg1)) (batchOf t) (queryOf t r) mm := by
  rw [tile_sq (iblk m c 0 t) (iblk m c 1 t) r mm]
  simp only [query_block m c t, key_block m c t]
  rfl

/-! ## The row output's block -/

theorem rows_at (c : Dev nD) (t : Fin cfg0.N) (r : Fin 128) :
    (dats m 0 c).after 2 t (ix3 (0 : Fin 1) (0 : Fin 1) r)
      = nearestKey (m ((c : Thread nD τ).loc main_arg0)) (m ((c : Thread nD τ).loc main_arg1)) (batchOf t) (queryOf t r) := by
  rw [after_rowOut, tile_rowmin (iblk m c 0 t) (iblk m c 1 t) r]
  simp only [tile_entry m c t]
  rfl

/-! ## The running column minimum -/

/-- A property of the 128 points of tile `k` is a property of the points whose tile number is `k`. -/
theorem forall_tile_iff (P : Fin 2048 → Prop) (k : ℕ) (hk : k < 16) :
    (∀ r : Fin 128, P ⟨128 * k + r.val, by have := r.isLt; omega⟩) ↔ ∀ q : Fin 2048, q.val / 128 = k → P q := by
  constructor
  · intro h q hq
    have e : q = ⟨128 * k + (⟨q.val % 128, Nat.mod_lt _ (by decide)⟩ : Fin 128).val, by have := q.isLt; omega⟩ :=
      Fin.ext (by show q.val = 128 * k + q.val % 128; omega)
    rw [e]; exact h _
  · intro h r
    exact h _ (by show (128 * k + r.val) / 128 = k; have := r.isLt; omega)

/-- The tile's column minimum at `mm` is the greatest lower bound of the squared distances from key `mm` to the tile's
    query points. -/
theorem tile_col_le_iff (c : Dev nD) (t : Fin cfg0.N) (mm : Fin 2048) (z : EReal) :
    z ≤ k0_pay6 (F := Ideal) (iblk m c 0 t) (iblk m c 1 t) (ix2 (0 : Fin 1) mm)
      ↔ ∀ q : Fin 2048, q.val / 128 = t.val % 16 →
          z ≤ sqDist (m ((c : Thread nD τ).loc main_arg0)) (m ((c : Thread nD τ).loc main_arg1)) (batchOf t) q mm := by
  rw [tile_colmin (iblk m c 0 t) (iblk m c 1 t) mm, Finset.le_fold_min]
  simp only [tile_entry m c t, Finset.mem_univ, forall_true_left, le_top, true_and]
  exact forall_tile_iff (fun q => z ≤ sqDist (m ((c : Thread nD τ).loc main_arg0)) (m ((c : Thread nD τ).loc main_arg1)) (batchOf t) q mm)
    (t.val % 16) (Nat.mod_lt _ (by decide))

/-- After the body at position `n` the scratch row at `mm` is the greatest lower bound of the squared distances from key
    `mm` to the query points of the batch's tiles up to this one. -/
theorem colAcc_le_iff (c : Dev nD) : ∀ (n : ℕ) (hn : n < cfg0.N) (mm : Fin 2048) (z : EReal),
    z ≤ colAcc m c n hn (ix2 (0 : Fin 1) mm)
      ↔ ∀ q : Fin 2048, q.val / 128 ≤ n % 16 →
          z ≤ sqDist (m ((c : Thread nD τ).loc main_arg0)) (m ((c : Thread nD τ).loc main_arg1)) (batchOf ⟨n, hn⟩) q mm := by
  intro n
  induction n with
  | zero =>
    intro hn mm z
    rw [colAcc_first m c ⟨0, hn⟩ rfl, acc_started, tile_col_le_iff m c ⟨0, hn⟩ mm z]
    constructor
    · intro h q hq; exact h q (by show q.val / 128 = 0 % 16; omega)
    · intro h q hq; exact h q (by have : q.val / 128 = 0 % 16 := hq; omega)
  | succ k ih =>
    intro hn mm z
    by_cases h0 : (k + 1) % 16 = 0
    · rw [colAcc_first m c ⟨k + 1, hn⟩ h0, acc_started, tile_col_le_iff m c ⟨k + 1, hn⟩ mm z]
      constructor
      · intro h q hq; exact h q (by show q.val / 128 = (k + 1) % 16; omega)
      · intro h q hq; exact h q (by have : q.val / 128 = (k + 1) % 16 := hq; omega)
    · have hk : k < cfg0.N := Nat.lt_of_succ_lt hn
      have hb : batchOf ⟨k, hk⟩ = batchOf ⟨k + 1, hn⟩ := Fin.ext (by show k / 16 = (k + 1) / 16; omega)
      rw [colAcc_later m c ⟨k + 1, hn⟩ h0, acc_lowered, le_min_iff, tile_col_le_iff m c ⟨k + 1, hn⟩ mm z]
      have ih' := ih hk mm z
      rw [hb] at ih'
      show (z ≤ colAcc m c (k + 1 - 1) _ (ix2 (0 : Fin 1) mm) ∧ _) ↔ _
      simp only [Nat.add_sub_cancel]
      rw [ih']
      constructor
      · rintro ⟨h1, h2⟩ q hq
        by_cases hq' : q.val / 128 = (k + 1) % 16
        · exact h2 q hq'
        · exact h1 q (by omega)
      · intro h
        exact ⟨fun q hq => h q (by omega), fun q hq => h q (by have : q.val / 128 = (k + 1) % 16 := hq; omega)⟩

/-- On a batch's last tile the scratch row is the least squared distance from each key point to any query point. -/
theorem colAcc_last (c : Dev nD) (t : Fin cfg0.N) (h15 : t.val % 16 = 15) (mm : Fin 2048) :
    colAcc m c t.val t.isLt (ix2 (0 : Fin 1) mm)
      = (Finset.univ : Finset (Fin 2048)).fold min ⊤ fun q =>
          sqDist (m ((c : Thread nD τ).loc main_arg0)) (m ((c : Thread nD τ).loc main_arg1)) (batchOf t) q mm := by
  refine eq_of_forall_le_iff fun z => ?_
  rw [colAcc_le_iff m c t.val t.isLt mm z, Finset.le_fold_min]
  constructor
  · intro h; exact ⟨le_top, fun q _ => h q (by have := q.isLt; omega)⟩
  · rintro ⟨-, h⟩ q _; exact h q (Finset.mem_univ _)

/-- So the column output's block there is the nearest-query distance of the batch's key points. -/
theorem cols_at (c : Dev nD) (t : Fin cfg0.N) (h15 : t.val % 16 = 15) (mm : Fin 2048) :
    (dats m 0 c).after 3 t (ix3 (0 : Fin 1) (0 : Fin 1) mm)
      = nearestQuery (m ((c : Thread nD τ).loc main_arg0)) (m ((c : Thread nD τ).loc main_arg1)) (batchOf t) mm := by
  rw [after_colOut, acc_rooted, colAcc_last m c t h15 mm]
  rfl

/-! ## From blocks to the arrays -/

/-- The row array the specification prescribes: `[8, 1, 2048]`, the unit axis in the middle. -/
def rowsArray (a b : Cert.Chamfer.Cloud) : S8x1x2048.Idx → EReal :=
  fun i => nearestKey a b ⟨(i 0).val, (i 0).isLt⟩ ⟨(i 2).val, (i 2).isLt⟩
/-- The column array the specification prescribes. -/
def colsArray (a b : Cert.Chamfer.Cloud) : S8x1x2048.Idx → EReal :=
  fun i => nearestQuery a b ⟨(i 0).val, (i 0).isLt⟩ ⟨(i 2).val, (i 2).isLt⟩

/-- Where entry `r` of the row output's block at `t` sits in its array. -/
theorem rows_emb (t : Fin cfg0.N) (r : Fin 128) :
    ((cfg0.win 2).blk t).view.emb (ix3 (0 : Fin 1) (0 : Fin 1) r) = ix3 (batchOf t) (0 : Fin 1) (queryOf t r) := by
  obtain ⟨-, -, -, -, -, -, e0, e1, e2, -⟩ := index_facts t
  funext a; apply Fin.ext
  match a with
  | ⟨0, _⟩ => show win0_2.index t (0 : Fin 3) * 1 + 1 * 0 = t.val / 16; omega
  | ⟨1, _⟩ => show win0_2.index t (1 : Fin 3) * 1 + 1 * 0 = 0; omega
  | ⟨2, _⟩ => show win0_2.index t (2 : Fin 3) * 128 + 1 * r.val = 128 * (t.val % 16) + r.val; omega

/-- Where entry `mm` of the column output's block at `t` sits in its array. -/
theorem cols_emb (t : Fin cfg0.N) (mm : Fin 2048) :
    ((cfg0.win 3).blk t).view.emb (ix3 (0 : Fin 1) (0 : Fin 1) mm) = ix3 (batchOf t) (0 : Fin 1) mm := by
  obtain ⟨-, -, -, -, -, -, -, -, -, e0, e1, e2⟩ := index_facts t
  funext a; apply Fin.ext
  match a with
  | ⟨0, _⟩ => show win0_3.index t (0 : Fin 3) * 1 + 1 * 0 = t.val / 16; omega
  | ⟨1, _⟩ => show win0_3.index t (1 : Fin 3) * 1 + 1 * 0 = 0; omega
  | ⟨2, _⟩ => show win0_3.index t (2 : Fin 3) * 2048 + 1 * mm.val = mm.val; omega

/-- An index of a block with two unit axes is its last coordinate. -/
theorem unit_unit_idx {n : ℕ} (j : (⟨3, ![1, 1, n]⟩ : Shape).Idx) :
    ∃ r : Fin n, j = ix3 (0 : Fin 1) (0 : Fin 1) r :=
  ⟨⟨(j 2).val, (j 2).isLt⟩, by
    funext a
    match a with
    | ⟨0, _⟩ => exact Subsingleton.elim (α := Fin 1) _ _
    | ⟨1, _⟩ => exact Subsingleton.elim (α := Fin 1) _ _
    | ⟨2, _⟩ => rfl⟩

/-- What point `t` writes back to the row array is block `t` of the prescribed array. -/
theorem flushed_rows (c : Dev nD) (t : Fin cfg0.N) :
    (dats m 0 c).flushed 2 t
      = ((cfg0.win 2).blk t).view.read (Elt Ideal) (rowsArray (m ((c : Thread nD τ).loc main_arg0)) (m ((c : Thread nD τ).loc main_arg1))) := by
  funext j
  obtain ⟨r, rfl⟩ := unit_unit_idx (n := 128) j
  show (dats m 0 c).after 2 t (ix3 (0 : Fin 1) (0 : Fin 1) r) = rowsArray _ _ (((cfg0.win 2).blk t).view.emb (ix3 (0 : Fin 1) (0 : Fin 1) r))
  rw [rows_at m c t r, rows_emb t r]
  rfl

/-- What a batch's last point writes back to the column array is its block of the prescribed array. -/
theorem flushed_cols (c : Dev nD) (t : Fin cfg0.N) (h15 : t.val % 16 = 15) :
    (dats m 0 c).flushed 3 t
      = ((cfg0.win 3).blk t).view.read (Elt Ideal) (colsArray (m ((c : Thread nD τ).loc main_arg0)) (m ((c : Thread nD τ).loc main_arg1))) := by
  funext j
  obtain ⟨mm, rfl⟩ := unit_unit_idx (n := 2048) j
  show (dats m 0 c).after 3 t (ix3 (0 : Fin 1) (0 : Fin 1) mm) = colsArray _ _ (((cfg0.win 3).blk t).view.emb (ix3 (0 : Fin 1) (0 : Fin 1) mm))
  rw [cols_at m c t h15 mm, cols_emb t mm]
  rfl

theorem mem_rowBlock (t : Fin cfg0.N) (i : S8x1x2048.Idx) :
    i ∈ ((cfg0.win 2).blk t).view.set
      ↔ ∀ a : Fin 3, win0_2.index t a * S1x1x128.size a ≤ (i a).val ∧ (i a).val < win0_2.index t a * S1x1x128.size a + S1x1x128.size a := by
  show i ∈ ((View.whole main_v2_0).slice (win0_2.rect t)).set ↔ _
  rw [View.set_slice_whole, Rect.mem_set_unit]
  exact Iff.rfl

theorem mem_colBlock (t : Fin cfg0.N) (i : S8x1x2048.Idx) :
    i ∈ ((cfg0.win 3).blk t).view.set
      ↔ ∀ a : Fin 3, win0_3.index t a * S1x1x2048.size a ≤ (i a).val ∧ (i a).val < win0_3.index t a * S1x1x2048.size a + S1x1x2048.size a := by
  show i ∈ ((View.whole main_v2_1).slice (win0_3.rect t)).set ↔ _
  rw [View.set_slice_whole, Rect.mem_set_unit]
  exact Iff.rfl

/-- Every entry of the row array is in the block of the point of its batch and tile. -/
theorem cover_rows (i : S8x1x2048.Idx) : ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 2048 := (i 2).isLt
  let t : Fin cfg0.N := ⟨16 * (i 0).val + (i 2).val / 128, by show _ < grid0.N; rw [N_0]; omega⟩
  have tv : t.val = 16 * (i 0).val + (i 2).val / 128 := rfl
  obtain ⟨-, -, -, -, -, -, e0, e1, e2, -⟩ := index_facts t
  refine ⟨t, flush0_2 t, (mem_rowBlock t i).mpr fun a => ?_⟩
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 128 ≤ (i 2).val ∧ (i 2).val < win0_2.index t (2 : Fin 3) * 128 + 128; omega

/-- Every entry of the column array is in the block its batch's last point writes back. -/
theorem cover_cols (i : S8x1x2048.Idx) : ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 2048 := (i 2).isLt
  let t : Fin cfg0.N := ⟨16 * (i 0).val + 15, by show _ < grid0.N; rw [N_0]; omega⟩
  have tv : t.val = 16 * (i 0).val + 15 := rfl
  obtain ⟨-, -, -, -, -, -, -, -, -, e0, e1, e2⟩ := index_facts t
  refine ⟨t, (flush0_3 t).mpr (by omega), (mem_colBlock t i).mpr fun a => ?_⟩
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 2048 ≤ (i 2).val ∧ (i 2).val < win0_3.index t (2 : Fin 3) * 2048 + 2048; omega

/-- THE ROW ARRAY after the run. -/
theorem final_rows (c : Dev nD) :
    (dats m 0 c).arrAt 2 cfg0.N = rowsArray (m ((c : Thread nD τ).loc main_arg0)) (m ((c : Thread nD τ).loc main_arg1)) :=
  (dats m 0 c).arrAt_eq_of_cover 2 _ (fun t _ => flushed_rows m c t) cover_rows

/-- THE COLUMN ARRAY after the run. -/
theorem final_cols (c : Dev nD) :
    (dats m 0 c).arrAt 3 cfg0.N = colsArray (m ((c : Thread nD τ).loc main_arg0)) (m ((c : Thread nD τ).loc main_arg1)) :=
  (dats m 0 c).arrAt_eq_of_cover 3 _ (fun t hf => flushed_cols m c t ((flush0_3 t).mp hf)) cover_cols

end Cert.KernelIdeal.Chamfer

end
-- ==== Proof.MeanTail.lean ====
/-
  The last stretch of host arithmetic that both programs share, as one function of the two nearest-neighbour arrays.

  Given the row array and the column array, each 8 batches by 2048 points, the tail sums each over its 2048 points
  starting from zero, divides each sum by the constant 2048 spread over the 8 batches, and adds the two quotients:
  the mean nearest distance of the queries plus that of the keys, per batch. Naming it once means that two programs
  ending in it agree as soon as their two arrays do. Also here: a 8 by 1 by 2048 array reshaped to 8 by 2048 has at
  (bt, n) the entry that was at (bt, 0, n), since both have the same row-major position bt * 2048 + n.
-/
import proofs.«146239_j42021960024229_2_alg».proof.Proof.Gen.ReferenceIdeal.Read
import Idealize.ShloMosaic.Lib.ValueIdx
import Idealize.ShloMosaic.Lib.Pipeline.Value
import Idealize.ShloMosaic.PureOps.Ideal

noncomputable section

namespace Cert.Chamfer.Tail

open Idealize.ShloMosaic Idealize.ShloMosaic.ValueIdx

/-- Per batch, the mean of `rows` over its 2048 points plus the mean of `cols` over its 2048 points: each sum starts from
    zero and is divided by the constant 2048. The three side conditions (the sum's shapes, the scalar's one element, the
    scalar spread over 8 entries) are hypotheses, so that each program supplies its own proofs of them. -/
def meanTail (rows cols : FVec Ideal (⟨2, ![8, 2048]⟩ : Shape) .f32)
    (hr : (⟨2, ![8, 2048]⟩ : Shape).ReducesTo [1] (⟨1, ![8]⟩ : Shape))
    (h0 : 0 < (⟨0, ![]⟩ : Shape).numel)
    (hb : (⟨0, ![]⟩ : Shape).BroadcastsInDim (⟨1, ![8]⟩ : Shape) (![] : Fin 0 → Fin (⟨1, ![8]⟩ : Shape).rank)) :
    FVec Ideal (⟨1, ![8]⟩ : Shape) .f32 :=
  addf
    (Host.divf (Host.reduceAdd (F := Ideal) rows (constant (F := Ideal) (⟨0, ![]⟩ : Shape) .f32 0x00000000#32) hr h0)
      (broadcastInDim (⟨1, ![8]⟩ : Shape) ![] hb (constant (F := Ideal) (⟨0, ![]⟩ : Shape) .f32 0x45000000#32)))
    (Host.divf (Host.reduceAdd (F := Ideal) cols (constant (F := Ideal) (⟨0, ![]⟩ : Shape) .f32 0x00000000#32) hr h0)
      (broadcastInDim (⟨1, ![8]⟩ : Shape) ![] hb (constant (F := Ideal) (⟨0, ![]⟩ : Shape) .f32 0x45000000#32)))

/-- The reference's result is the shared tail of its row array and its column array: its last seven operations are,
    in order, exactly the two sums from zero, the two spread constants, the two quotients and their sum. -/
theorem ref_tail (a b : (⟨Cert.ReferenceIdeal.S8x2048x3, .f32⟩ : BufTy).Contents (Elt Ideal)) :
    Cert.ReferenceIdeal.Read.val_main_v16 (F := Ideal) a b
      = meanTail (Cert.ReferenceIdeal.Read.val_main_v8 (F := Ideal) a b) (Cert.ReferenceIdeal.Read.val_main_v9 (F := Ideal) a b)
          Cert.ReferenceIdeal.Gen.reducesTo_S8x2048_S8_d1 Cert.ReferenceIdeal.Gen.h_S_ Cert.ReferenceIdeal.Gen.bcast_S_S8 := rfl

/-- An 8 by 1 by 2048 array reshaped to 8 by 2048, read at (bt, n), is the array at (bt, 0, n): both indices have the
    row-major position bt * 2048 + n. -/
theorem rows_of_unit {α : Type} (v : (⟨3, ![8, 1, 2048]⟩ : Shape).Idx → α)
    (h : (⟨3, ![8, 1, 2048]⟩ : Shape).ShapeCasts (⟨2, ![8, 2048]⟩ : Shape)) (bt : Fin 8) (n : Fin 2048) :
    shapeCast (⟨2, ![8, 2048]⟩ : Shape) v h (ix2 bt n) = v (ix3 bt (0 : Fin 1) n) := by
  refine shapeCast_apply v h (ix2 bt n) (ix3 bt (0 : Fin 1) n) ?_
  rw [Shape.rowMajor_val_three, Shape.rowMajor_val_two]
  show (bt.val * 1 + 0) * 2048 + n.val = bt.val * 2048 + n.val
  omega

end Cert.Chamfer.Tail

end
-- ==== Proof.KernelTail.lean ====
/-
  The kernel program's result is the shared tail of the two arrays its region leaves.

  After the region the kernel program reshapes its two output arrays, each 8 by 1 by 2048, to 8 by 2048, and then
  performs the same arithmetic the reference ends with: each reshaped array summed over its 2048 points from zero,
  divided by the constant 2048, and the two quotients added. Reading the program's last buffer after those operations
  gives that arithmetic applied to the region's two output arrays as they stand at the region's exit, which is the
  shared tail at the two reshaped arrays.
-/
import proofs.«146239_j42021960024229_2_alg».proof.Proof.MeanTail
import proofs.«146239_j42021960024229_2_alg».proof.Proof.IdealColumnAcc
import Idealize.ShloMosaic.Lib.Pipeline.FrameSuffix
import Idealize.ShloMosaic.Lib.StableHlo.Run
import Idealize.ShloMosaic.PureOps.Ideal

set_option maxRecDepth 16384

noncomputable section

namespace Cert.Chamfer.KernelTail

open Idealize.ShloMosaic Idealize.ShloMosaic.TcCoe Idealize.ShloMosaic.StableHlo Idealize.SL.Sem
open Cert.KernelIdeal Cert.KernelIdeal.Gen Cert.KernelIdeal.Chamfer
open Cert.Chamfer.Tail

/-- What the kernel program's last buffer holds after the operations that follow the region: the shared tail of the
    row output array and the column output array, each as the region leaves it and reshaped to 8 by 2048. The
    operations after the region read the two output arrays where the region's data puts them, and every other step is
    the tail's own arithmetic. -/
theorem kernel_tail (m : (ℓ : Loc nD τ sig) → Buf (Elt Ideal) ℓ) (c : Dev nD) :
    Pipeline.afterTail₀ cfgs (dats (F := Ideal) m) 0 (V0 m) [hostOps1] c main_v11
      = meanTail (shapeCast S8x2048 ((dats (F := Ideal) m 0 c).arrAt 2 cfg0.N : FVec Ideal S8x1x2048 .f32) shapeCasts_S8x1x2048_S8x2048)
          (shapeCast S8x2048 ((dats (F := Ideal) m 0 c).arrAt 3 cfg0.N : FVec Ideal S8x1x2048 .f32) shapeCasts_S8x1x2048_S8x2048)
          reducesTo_S8x2048_S8_d1 h_S_ bcast_S_S8 := by
  unfold Pipeline.afterTail₀
  show StableHlo.after hostOps1 _ (Proc.devRef .tc main_v11) = _
  after_results
  have e2 : Pipeline.withArrays (cfgs 0).spec c (V0 m c) (fun w => (dats (F := Ideal) m 0 c).arrAt w (cfgs 0).N)
      (Proc.devRef .tc main_v2_0) = (dats (F := Ideal) m 0 c).arrAt 2 cfg0.N :=
    Pipeline.withArrays_arr spec0 launch0.win.arr_inj c _ _ 2
  have e3 : Pipeline.withArrays (cfgs 0).spec c (V0 m c) (fun w => (dats (F := Ideal) m 0 c).arrAt w (cfgs 0).N)
      (Proc.devRef .tc main_v2_1) = (dats (F := Ideal) m 0 c).arrAt 3 cfg0.N :=
    Pipeline.withArrays_arr spec0 launch0.win.arr_inj c _ _ 3
  rw [e2, e3]
  rfl

end Cert.Chamfer.KernelTail

end
-- ==== Proof.ReferenceNearest.lean ====
/-
  The reference's two nearest-neighbour arrays, read at a coordinate and joined to the specification.

  The reference first forms every pairwise distance: at (bt, n, m) the square root of the three squared coordinate
  differences between query point n and key point m of batch bt, added left to right onto zero. Its row array is, at
  (bt, n), the least of those roots over all key points m, and its column array, at (bt, m), the least over all query
  points n; "least" is a fold of min that starts from the single-precision word for +∞, which is ⊤ on the extended reals.
  The specification takes the root after minimising, the reference before: since the root is monotone and fixes ⊤, the
  root of the least is the least of the roots (sqrt_fold_min), and that law, read right to left, turns each fold of
  roots into nearestKey and nearestQuery.
-/
import proofs.«146239_j42021960024229_2_alg».proof.Proof.Gen.ReferenceIdeal.Read
import proofs.«146239_j42021960024229_2_alg».proof.Proof.ChamferSpec
import Idealize.ShloMosaic.Lib.ValueIdx
import Idealize.ShloMosaic.Lib.Pipeline.Value
import Idealize.ShloMosaic.PureOps.Ideal
import Idealize.ShloMosaic.PureOps.Ideal.Laws
import Idealize.ShloMosaic.PureOps.Reduce

noncomputable section

namespace Cert.Chamfer.Reference

open Cert.ReferenceIdeal Cert.ReferenceIdeal.Gen Cert.ReferenceIdeal.Read Idealize.ShloMosaic Idealize.ShloMosaic.ValueIdx

/-- The single-precision word with all exponent bits set and no fraction bits is +∞. -/
theorem ofBits_inf_f32 : Ideal.ofBits .f32 0x7F800000#32 = (⊤ : EReal) := by
  simp [Ideal.ofBits, Ideal.ieee]

/-- Tracing coordinate (bt, n, m, k) of the difference array back to the first cloud: both broadcasts forget m. -/
theorem idx_query (bt : Fin 8) (n m : Fin 2048) (k : Fin 3) :
    idx_main_v0 (idx_main_v2 (idx_main_v6 (ix3 bt n m) k)) = ix3 bt n k :=
  funext fun c => Fin.ext (by match c with | ⟨0, _⟩ => rfl | ⟨1, _⟩ => rfl | ⟨2, _⟩ => rfl)

/-- Tracing coordinate (bt, n, m, k) of the difference array back to the second cloud: both broadcasts forget n. -/
theorem idx_key (bt : Fin 8) (n m : Fin 2048) (k : Fin 3) :
    idx_main_v1 (idx_main_v3 (idx_main_v6 (ix3 bt n m) k)) = ix3 bt m k :=
  funext fun c => Fin.ext (by match c with | ⟨0, _⟩ => rfl | ⟨1, _⟩ => rfl | ⟨2, _⟩ => rfl)

/-- The pairwise distance array at (bt, n, m) is the root of the squared distance between query point n and key point m:
    zero plus the sum over the three coordinates is the three squares added left to right. -/
theorem dist_apply (a b : (⟨S8x2048x3, .f32⟩ : BufTy).Contents (Elt Ideal)) (bt : Fin 8) (n m : Fin 2048) :
    val_main_v7 (F := Ideal) a b (ix3 bt n m) = Ideal.sqrt (Cert.Chamfer.sqDist a b bt n m) := by
  rw [val_main_v7_apply, Ideal.hostUnary_sqrt_def, val_main_v6_apply, Fin.sum_univ_three]
  simp only [val_main_v5_apply, val_main_v4_apply, val_main_v2_apply, val_main_v3_apply, val_main_v0_apply,
    val_main_v1_apply, val_main_cst_apply, Ideal.subf_def, Ideal.mulf_def, Ideal.ofBits_def, Ideal.ofBits_zero_f32, zero_add,
    idx_query, idx_key]
  rfl

/-- The row index (bt, n) with key coordinate k put back on axis 2 is (bt, n, k). -/
theorem lift_rows (h : S8x2048x2048.Reduces [2] S8x2048) (bt : Fin 8) (n : Fin 2048)
    (k : Fin (S8x2048x2048.size 2)) : h.lift (ix2 bt n) k = ix3 bt n (⟨k.val, k.isLt⟩ : Fin 2048) :=
  funext fun c => Fin.ext (by match c with | ⟨0, _⟩ => rfl | ⟨1, _⟩ => rfl | ⟨2, _⟩ => rfl)

/-- The column index (bt, m) with query coordinate k put back on axis 1 is (bt, k, m). -/
theorem lift_cols (h : S8x2048x2048.Reduces [1] S8x2048) (bt : Fin 8) (m : Fin 2048)
    (k : Fin (S8x2048x2048.size 1)) : h.lift (ix2 bt m) k = ix3 bt (⟨k.val, k.isLt⟩ : Fin 2048) m :=
  funext fun c => Fin.ext (by match c with | ⟨0, _⟩ => rfl | ⟨1, _⟩ => rfl | ⟨2, _⟩ => rfl)

/-- The reference's row array at (bt, n) is the distance from query point n to its nearest key point: a fold of min from
    ⊤ over the key points of the roots, which is the root of the fold. -/
theorem ref_rows (a b : (⟨S8x2048x3, .f32⟩ : BufTy).Contents (Elt Ideal)) (bt : Fin 8) (n : Fin 2048) :
    val_main_v8 (F := Ideal) a b (ix2 bt n) = Cert.Chamfer.nearestKey a b bt n := by
  have h : S8x2048x2048.Reduces [2] S8x2048 := by decide
  unfold val_main_v8
  rw [Host.reduce_eq_fold_single FloatOps.minimumf _ _ reducesTo_S8x2048x2048_S8x2048_d2 h h_S_]
  have hf : (val_main_v7 (F := Ideal) a b ∘ h.lift (ix2 bt n))
      = fun m : Fin 2048 => Ideal.sqrt (Cert.Chamfer.sqDist a b bt n m) :=
    funext fun k => (congrArg (val_main_v7 (F := Ideal) a b) (lift_rows h bt n k)).trans (dist_apply a b bt n _)
  have e : Finset.fold min (⊤ : EReal) (val_main_v7 (F := Ideal) a b ∘ h.lift (ix2 bt n)) (Finset.univ : Finset (Fin 2048))
      = Cert.Chamfer.nearestKey a b bt n := by
    rw [hf, Cert.Chamfer.nearestKey, Cert.Chamfer.sqrt_fold_min]
    rfl
  refine Eq.trans ?_ e
  exact congrArg (fun t => Finset.fold min t (val_main_v7 (F := Ideal) a b ∘ h.lift (ix2 bt n)) (Finset.univ : Finset (Fin 2048)))
    ofBits_inf_f32

/-- The reference's column array at (bt, m) is the distance from key point m to its nearest query point: a fold of min
    from ⊤ over the query points of the roots, which is the root of the fold. -/
theorem ref_cols (a b : (⟨S8x2048x3, .f32⟩ : BufTy).Contents (Elt Ideal)) (bt : Fin 8) (m : Fin 2048) :
    val_main_v9 (F := Ideal) a b (ix2 bt m) = Cert.Chamfer.nearestQuery a b bt m := by
  have h : S8x2048x2048.Reduces [1] S8x2048 := by decide
  unfold val_main_v9
  rw [Host.reduce_eq_fold_single FloatOps.minimumf _ _ reducesTo_S8x2048x2048_S8x2048_d1 h h_S_]
  have hf : (val_main_v7 (F := Ideal) a b ∘ h.lift (ix2 bt m))
      = fun n : Fin 2048 => Ideal.sqrt (Cert.Chamfer.sqDist a b bt n m) :=
    funext fun k => (congrArg (val_main_v7 (F := Ideal) a b) (lift_cols h bt m k)).trans (dist_apply a b bt _ m)
  have e : Finset.fold min (⊤ : EReal) (val_main_v7 (F := Ideal) a b ∘ h.lift (ix2 bt m)) (Finset.univ : Finset (Fin 2048))
      = Cert.Chamfer.nearestQuery a b bt m := by
    rw [hf, Cert.Chamfer.nearestQuery, Cert.Chamfer.sqrt_fold_min]
    rfl
  refine Eq.trans ?_ e
  exact congrArg (fun t => Finset.fold min t (val_main_v7 (F := Ideal) a b ∘ h.lift (ix2 bt m)) (Finset.univ : Finset (Fin 2048)))
    ofBits_inf_f32

end Cert.Chamfer.Reference

end
-- ==== Proof.lean ====
/-
  Two ways of computing, per batch, the mean distance from each query point to its nearest key point plus the mean
  distance from each key point to its nearest query point, for two clouds of 2048 points in 3-space: a tiled kernel and
  a plain reference. They agree on the extended reals.

  The reference takes the root of every pairwise squared distance and then the least along each axis. The kernel takes
  the least of the squared distances first — along the key axis within a tile of 128 query points, and along the query
  axis by carrying a running minimum in a scratch row across the 16 tiles of a batch — and takes the root once, of the
  least. The root on the extended reals is monotone and fixes the top element, so the root of the least is the least
  of the roots (Proof/ChamferSpec.lean); sums and minima do not depend on order or grouping; and both programs end with
  the same means and the same sum (Proof/MeanTail.lean). No finiteness of the inputs is used.

  The kernel's frame (it runs to the end, faults nowhere, leaves its arguments unchanged) is proved for the printed program
  read at words and read at extended reals from one text generic in the reading: the body is run once in each of three
  kinds of grid point (first, later, last tile of a batch: Proof/*TileRuns.lean), and the region's invariant carries the
  running column minimum in the scratch row from point to point (Proof/*ColumnAcc.lean). What the two output arrays hold
  after the run is Proof/IdealNearest.lean; the host operations after the region are Proof/KernelTail.lean; the
  reference's two arrays are Proof/ReferenceNearest.lean. The idealisation rewrote nothing, so it preserves trivially.
-/
import proofs.«146239_j42021960024229_2_alg».proof.Defs
import proofs.«146239_j42021960024229_2_alg».proof.Proof.Gen.Kernel
import proofs.«146239_j42021960024229_2_alg».proof.Proof.Gen.KernelIdeal
import proofs.«146239_j42021960024229_2_alg».proof.Proof.Gen.ReferenceIdeal
import proofs.«146239_j42021960024229_2_alg».proof.Proof.Gen.ReferenceIdeal.Run
import proofs.«146239_j42021960024229_2_alg».proof.Proof.Gen.ReferenceIdeal.Read
import proofs.«146239_j42021960024229_2_alg».proof.Proof.Gen.Pre_finite_inputs
import proofs.«146239_j42021960024229_2_alg».proof.Proof.WordColumnAcc
import proofs.«146239_j42021960024229_2_alg».proof.Proof.IdealNearest
import proofs.«146239_j42021960024229_2_alg».proof.Proof.KernelTail
import proofs.«146239_j42021960024229_2_alg».proof.Proof.ReferenceNearest
import proofs.«146239_j42021960024229_2_alg».proof.Proof.MeanTail
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx
open Cert.KernelIdeal.Chamfer (rowsArray colsArray)

/-! ## The two arrays agree -/

/-- The reference's row array is the kernel's row array with its unit axis dropped. -/
theorem rows_agree (a b : Cert.Chamfer.Cloud) :
    Cert.ReferenceIdeal.Read.val_main_v8 (F := Ideal) a b
      = shapeCast Cert.KernelIdeal.S8x2048 (rowsArray a b) Cert.KernelIdeal.Gen.shapeCasts_S8x1x2048_S8x2048 := by
  funext j
  obtain ⟨bt, n, rfl⟩ : ∃ (bt : Fin 8) (n : Fin 2048), j = ix2 bt n := ⟨j 0, j 1, eq_ix2 j⟩
  rw [Cert.Chamfer.Reference.ref_rows, Cert.Chamfer.Tail.rows_of_unit]
  rfl

/-- The reference's column array is the kernel's column array with its unit axis dropped. -/
theorem cols_agree (a b : Cert.Chamfer.Cloud) :
    Cert.ReferenceIdeal.Read.val_main_v9 (F := Ideal) a b
      = shapeCast Cert.KernelIdeal.S8x2048 (colsArray a b) Cert.KernelIdeal.Gen.shapeCasts_S8x1x2048_S8x2048 := by
  funext j
  obtain ⟨bt, mm, rfl⟩ : ∃ (bt : Fin 8) (mm : Fin 2048), j = ix2 bt mm := ⟨j 0, j 1, eq_ix2 j⟩
  rw [Cert.Chamfer.Reference.ref_cols, Cert.Chamfer.Tail.rows_of_unit]
  rfl

/-- What both programs compute from the two clouds. -/
def meanNearest (a b : Cert.Chamfer.Cloud) : FVec Ideal Cert.KernelIdeal.S8 .f32 :=
  Cert.Chamfer.Tail.meanTail
    (shapeCast Cert.KernelIdeal.S8x2048 (rowsArray a b) Cert.KernelIdeal.Gen.shapeCasts_S8x1x2048_S8x2048)
    (shapeCast Cert.KernelIdeal.S8x2048 (colsArray a b) Cert.KernelIdeal.Gen.shapeCasts_S8x1x2048_S8x2048)
    Cert.KernelIdeal.Gen.reducesTo_S8x2048_S8_d1 Cert.KernelIdeal.Gen.h_S_ Cert.KernelIdeal.Gen.bcast_S_S8

/-- The reference's result is that. -/
theorem ref_result (a b : Cert.Chamfer.Cloud) :
    Cert.ReferenceIdeal.Read.val_main_v16 (F := Ideal) a b = meanNearest a b := by
  rw [Cert.Chamfer.Tail.ref_tail, rows_agree, cols_agree]
  rfl

/-! ## The claims -/

theorem frame_word : Cert.frame_Kernel := fun m ρ _ => Cert.Kernel.Chamfer.frame m ρ

theorem frame_ideal : Cert.frame_KernelIdeal := fun m ρ _ => Cert.KernelIdeal.Chamfer.frame m ρ

theorem frame_ref : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two clouds both programs end with `meanNearest` of them. -/
theorem algebraic : Cert.algebraic_KernelIdeal_ReferenceIdeal := by
  intro m ρ m' ρ' _ hagree
  refine ⟨fun c => meanNearest (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩)
      (Cert.KernelIdeal.Chamfer.run_main (F := Ideal) m ρ)
    · refine ((h c).2 Cert.KernelIdeal.main_v11 (Pipeline.mem_restRefs_of Cert.KernelIdeal.main_v11 (by decide) (by decide))).trans ?_
      rw [Cert.Chamfer.KernelTail.kernel_tail m c, Cert.KernelIdeal.Chamfer.final_rows m c, Cert.KernelIdeal.Chamfer.final_cols m c]
      rfl
    · exact ((h c).2 Cert.KernelIdeal.main_arg0 (Pipeline.mem_restRefs_of Cert.KernelIdeal.main_arg0 (by decide) (by decide))).trans
        (Cert.KernelIdeal.Gen.W_main_arg0 m (Cert.KernelIdeal.Chamfer.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Chamfer.dats m) c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, ref_result, (hagree c).1, (hagree c).2]

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
